-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x10x128 : Shape := ⟨3, ![1024, 10, 128]⟩
abbrev S1024x10x32x128 : Shape := ⟨4, ![1024, 10, 32, 128]⟩
abbrev S128x128 : Shape := ⟨2, ![128, 128]⟩
abbrev S256 : Shape := ⟨1, ![256]⟩
abbrev S_ : Shape := ⟨0, ![]⟩

class Facts : Prop where
  bcast_S_S1024x10x128 : S_.BroadcastsInDim S1024x10x128 (![] : Fin 0 → Fin S1024x10x128.rank)
  reducesTo_S1024x10x128_S_d0_1_2 : S1024x10x128.ReducesTo [0, 1, 2] S_
  h_S_ : 0 < S_.numel
  bcast_S_S1024x10x32x128 : S_.BroadcastsInDim S1024x10x32x128 (![] : Fin 0 → Fin S1024x10x32x128.rank)
  reducesTo_S1024x10x32x128_S_d0_1_2_3 : S1024x10x32x128.ReducesTo [0, 1, 2, 3] S_
  bcast_S_S128x128 : S_.BroadcastsInDim S128x128 (![] : Fin 0 → Fin S128x128.rank)
  reducesTo_S128x128_S_d0_1 : S128x128.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S128x128 .f32) (main_arg5 : FVec F S128x128 .f32) (main_arg6 : FVec F S256 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S1024x10x128 .f32) (main_arg1 : FVec F S1024x10x32x128 .f32) (main_arg2 : FVec F S1024x10x32x128 .f32) (main_arg3 : FVec F S128x128 .f32) (main_arg4 : FVec F S128x128 .f32) (main_arg5 : FVec F S128x128 .f32) (main_arg6 : FVec F S256 .f32) : IVec S_ 1 :=
  let main_v0 : FVec F S1024x10x128 .f32 := Host.absf main_arg0
  let main_cst : FVec F S_ .f32 := constant S_ .f32 0x7F800000#32
  let main_v1 : FVec F S1024x10x128 .f32 := broadcastInDim S1024x10x128 ![] bcast_S_S1024x10x128 main_cst
  let main_v2 : IVec S1024x10x128 1 := cmpf .olt main_v0 main_v1
  let main_c : IVec S_ 1 := constantI S_ 1 1#1
  let main_v3 : IVec S_ 1 := (fun x v => Host.reduce IntOp.andi x v reducesTo_S1024x10x128_S_d0_1_2 h_S_) main_v2 main_c
  let main_v4 : FVec F S1024x10x32x128 .f32 := Host.absf main_arg1
  let main_cst_0 : FVec F S_ .f32 := constant S_ .f32 0x7F800000#32
  let main_v5 : FVec F S1024x10x32x128 .f32 := broadcastInDim S1024x10x32x128 ![] bcast_S_S1024x10x32x128 main_cst_0
  let main_v6 : IVec S1024x10x32x128 1 := cmpf .olt main_v4 main_v5
  let main_c_1 : IVec S_ 1 := constantI S_ 1 1#1
  let main_v7 : IVec S_ 1 := (fun x v => Host.reduce IntOp.andi x v reducesTo_S1024x10x32x128_S_d0_1_2_3 h_S_) main_v6 main_c_1
  let main_v8 : IVec S_ 1 := andi main_v3 main_v7
  let main_v9 : FVec F S1024x10x32x128 .f32 := Host.absf main_arg2
  let main_cst_2 : FVec F S_ .f32 := constant S_ .f32 0x7F800000#32
  let main_v10 : FVec F S1024x10x32x128 .f32 := broadcastInDim S1024x10x32x128 ![] bcast_S_S1024x10x32x128 main_cst_2
  let main_v11 : IVec S1024x10x32x128 1 := cmpf .olt main_v9 main_v10
  let main_c_3 : IVec S_ 1 := constantI S_ 1 1#1
  let main_v12 : IVec S_ 1 := (fun x v => Host.reduce IntOp.andi x v reducesTo_S1024x10x32x128_S_d0_1_2_3 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S1024x10x128 : Shape := ⟨3, ![1024, 10, 128]⟩
abbrev S1024x10x32x128 : Shape := ⟨4, ![1024, 10, 32, 128]⟩
abbrev S128x128 : Shape := ⟨2, ![128, 128]⟩
abbrev S256 : Shape := ⟨1, ![256]⟩
abbrev S10240x128 : Shape := ⟨2, ![10240, 128]⟩
abbrev S10240x32x128 : Shape := ⟨3, ![10240, 32, 128]⟩
abbrev S1x256 : Shape := ⟨2, ![1, 256]⟩
abbrev S256x128 : Shape := ⟨2, ![256, 128]⟩
abbrev S10240x256 : Shape := ⟨2, ![10240, 256]⟩
abbrev S512x128 : Shape := ⟨2, ![512, 128]⟩
abbrev S512x32x128 : Shape := ⟨3, ![512, 32, 128]⟩
abbrev S512x256 : Shape := ⟨2, ![512, 256]⟩
abbrev S512x8x128 : Shape := ⟨3, ![512, 8, 128]⟩
abbrev S1024x10x256 : Shape := ⟨3, ![1024, 10, 256]⟩

abbrev nBuf : Space → Nat
  | .hbm => 14
  | .vmem => 11
  | .smem => 0
  | _ => 0

abbrev bufTy : (tb : Table) → Fin (tcTables nBuf tb) → BufTy
  | .hbm, ⟨0, _⟩ => ⟨S1024x10x128, .f32⟩
  | .hbm, ⟨1, _⟩ => ⟨S1024x10x32x128, .f32⟩
  | .hbm, ⟨2, _⟩ => ⟨S1024x10x32x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S256, .f32⟩
  | .hbm, ⟨7, _⟩ => ⟨S10240x128, .f32⟩
  | .hbm, ⟨8, _⟩ => ⟨S10240x32x128, .f32⟩
  | .hbm, ⟨9, _⟩ => ⟨S10240x32x128, .f32⟩
  | .hbm, ⟨10, _⟩ => ⟨S1x256, .f32⟩
  | .hbm, ⟨11, _⟩ => ⟨S256x128, .f32⟩
  | .hbm, ⟨12, _⟩ => ⟨S10240x256, .f32⟩
  | .hbm, ⟨13, _⟩ => ⟨S1024x10x256, .f32⟩
  | .local _ .vmem, ⟨0, _⟩ => ⟨S512x128, .f32⟩
  | .local _ .vmem, ⟨1, _⟩ => ⟨S512x128, .f32⟩
  | .local _ .vmem, ⟨2, _⟩ => ⟨S512x32x128, .f32⟩
  | .local _ .vmem, ⟨3, _⟩ => ⟨S512x32x128, .f32⟩
  | .local _ .vmem, ⟨4, _⟩ => ⟨S512x32x128, .f32⟩
  | .local _ .vmem, ⟨5, _⟩ => ⟨S512x32x128, .f32⟩
  | .local _ .vmem, ⟨6, _⟩ => ⟨S256x128, .f32⟩
  | .local _ .vmem, ⟨7, _⟩ => ⟨S128x128, .f32⟩
  | .local _ .vmem, ⟨8, _⟩ => ⟨S1x256, .f32⟩
  | .local _ .vmem, ⟨9, _⟩ => ⟨S512x256, .f32⟩
  | .local _ .vmem, ⟨10, _⟩ => ⟨S512x256, .f32⟩
  | _, _ => ⟨S1024x10x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![20], ![false]⟩

def k0_mult1 : BitVec 32 :=
  let c0_i32 : BitVec 32 := 0#32
  let c8_i32 : BitVec 32 := 8#32
  let v3 : BitVec 32 := Scalar.muli c0_i32 c8_i32
  v3
def k0_off1 (c0_i32 : BitVec 32) : Fin 3 → Nat :=
  let c0_1 : Index := 0#32
  let c8_i32 : BitVec 32 := 8#32
  let v3 : BitVec 32 := Scalar.muli c0_i32 c8_i32
  let v4 : BitVec 32 := v3
  let v5 : Index := Scalar.indexCast v4
  let c0_2 : Index := 0#32
  ![0, v5.toNat, 0]
def k0_mult2 : BitVec 32 :=
  let c1_i32 : BitVec 32 := 1#32
  let c8_i32_4 : BitVec 32 := 8#32
  let v10 : BitVec 32 := Scalar.muli c1_i32 c8_i32_4
  v10
def k0_mult3 : BitVec 32 :=
  let c2_i32 : BitVec 32 := 2#32
  let c8_i32_8 : BitVec 32 := 8#32
  let v17 : BitVec 32 := Scalar.muli c2_i32 c8_i32_8
  v17
def k0_mult4 : BitVec 32 :=
  let c3_i32 : BitVec 32 := 3#32
  let c8_i32_12 : BitVec 32 := 8#32
  let v24 : BitVec 32 := Scalar.muli c3_i32 c8_i32_12
  v24
def k0_mult5 : BitVec 32 :=
  let c0_i32_17 : BitVec 32 := 0#32
  let c8_i32_18 : BitVec 32 := 8#32
  let v32 : BitVec 32 := Scalar.muli c0_i32_17 c8_i32_18
  v32
def k0_mult6 : BitVec 32 :=
  let c1_i32_22 : BitVec 32 := 1#32
  let c8_i32_23 : BitVec 32 := 8#32
  let v39 : BitVec 32 := Scalar.muli c1_i32_22 c8_i32_23
  v39
def k0_mult7 : BitVec 32 :=
  let c2_i32_27 : BitVec 32 := 2#32
  let c8_i32_28 : BitVec 32 := 8#32
  let v46 : BitVec 32 := Scalar.muli c2_i32_27 c8_i32_28
  v46
def k0_mult8 : BitVec 32 :=
  let c3_i32_32 : BitVec 32 := 3#32
  let c8_i32_33 : BitVec 32 := 8#32
  let v53 : BitVec 32 := Scalar.muli c3_i32_32 c8_i32_33
  v53
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S1024x10x128_S10240x128 : S1024x10x128.ShapeCasts S10240x128
  shapeCasts_S1024x10x32x128_S10240x32x128 : S1024x10x32x128.ShapeCasts S10240x32x128
  shapeCasts_S256_S1x256 : S256.ShapeCasts S1x256
  concatenates_S128x128_S128x128_S256x128_d0 : Shape.Concatenates [S128x128, S128x128] S256x128 0
  inb_S512x128_S512x128_0_0 : ∀ a, (![0, 0] : Fin 2 → Nat) a + S512x128.size a ≤ S512x128.size a
  h_S512x128 : 0 < S512x128.numel
  shapeCasts_S512x128_S512x128 : S512x128.ShapeCasts S512x128
  h_S512x8x128 : 0 < S512x8x128.numel
  shapeCasts_S512x8x128_S512x8x128 : S512x8x128.ShapeCasts S512x8x128
  reduces_S512x8x128_S512x128 : S512x8x128.Reduces [1] S512x128
  concatenates_S512x128_S512x128_S512x256_d1 : Shape.Concatenates [S512x128, S512x128] S512x256 1
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x128_S128x128_0_0 : ∀ a, (![0, 0] : Fin 2 → Nat) a + S128x128.size a ≤ S128x128.size a
  h_S128x128 : 0 < S128x128.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  shapeCasts_S10240x256_S1024x10x256 : S10240x256.ShapeCasts S1024x10x256
  dot_S512x256_S256x128_S512x128_1_0_0_1_n_n_wf : DotDims.WF S512x256 S256x128 S512x128 [1] [0] [0] [1] [] []
  dot_S512x128_S128x128_S512x128_1_0_0_1_n_n_wf : DotDims.WF S512x128 S128x128 S512x128 [1] [0] [0] [1] [] []
  hrank0 : 0 < grid0.rank
  k0_mult1_dvd : 8 ∣ k0_mult1.toNat
  k0_off1_inb : ∀ (r : Fin 4), ∀ a, (k0_off1 (BitVec.ofNat 32 r.val)) a + S512x8x128.size a ≤ S512x32x128.size a
  k0_mult2_dvd : 8 ∣ k0_mult2.toNat
  k0_mult3_dvd : 8 ∣ k0_mult3.toNat
  k0_mult4_dvd : 8 ∣ k0_mult4.toNat
  k0_mult5_dvd : 8 ∣ k0_mult5.toNat
  k0_mult6_dvd : 8 ∣ k0_mult6.toNat
  k0_mult7_dvd : 8 ∣ k0_mult7.toNat
  k0_mult8_dvd : 8 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S10240x128.size a
  hwx0_0 : ∀ i : grid0.Coords, EltTy.bits .f32 = 32 ∨ (Rect.block (s := S10240x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x32x128.size a ≤ S10240x32x128.size a
  hwx0_1 : ∀ i : grid0.Coords, EltTy.bits .f32 = 32 ∨ (Rect.block (s := S10240x32x128) S512x32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x32x128.size a ≤ S10240x32x128.size a
  hwx0_2 : ∀ i : grid0.Coords, EltTy.bits .f32 = 32 ∨ (Rect.block (s := S10240x32x128) S512x32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S10240x256.size a
  hwx0_6 : ∀ i : grid0.Coords, EltTy.bits .f32 = 32 ∨ (Rect.block (s := S10240x256) S512x256.size (cc0_transform_6 i) (hinb0_6 i)).WholeWords (EltTy.packing .f32)

variable [Facts₀]

def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_v0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x32x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S512x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1024x10x128 : Shape := ⟨3, ![1024, 10, 128]⟩
abbrev S1024x10x32x128 : Shape := ⟨4, ![1024, 10, 32, 128]⟩
abbrev S128x128 : Shape := ⟨2, ![128, 128]⟩
abbrev S256 : Shape := ⟨1, ![256]⟩
abbrev S_ : Shape := ⟨0, ![]⟩
abbrev S1024x10x256 : Shape := ⟨3, ![1024, 10, 256]⟩
abbrev S1x1x256 : Shape := ⟨3, ![1, 1, 256]⟩

abbrev nBuf : Space → Nat
  | .hbm => 31
  | .vmem => 0
  | .smem => 0
  | _ => 0

abbrev bufTy : (tb : Table) → Fin (tcTables nBuf tb) → BufTy
  | .hbm, ⟨0, _⟩ => ⟨S1024x10x128, .f32⟩
  | .hbm, ⟨1, _⟩ => ⟨S1024x10x32x128, .f32⟩
  | .hbm, ⟨2, _⟩ => ⟨S1024x10x32x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S256, .f32⟩
  | .hbm, ⟨7, _⟩ => ⟨S_, .f32⟩
  | .hbm, ⟨8, _⟩ => ⟨S1024x10x128, .f32⟩
  | .hbm, ⟨9, _⟩ => ⟨S1024x10x128, .f32⟩
  | .hbm, ⟨10, _⟩ => ⟨S_, .f32⟩
  | .hbm, ⟨11, _⟩ => ⟨S1024x10x128, .f32⟩
  | .hbm, ⟨12, _⟩ => ⟨S1024x10x128, .f32⟩
  | .hbm, ⟨13, _⟩ => ⟨S_, .f32⟩
  | .hbm, ⟨14, _⟩ => ⟨S1024x10x128, .f32⟩
  | .hbm, ⟨15, _⟩ => ⟨S1024x10x128, .f32⟩
  | .hbm, ⟨16, _⟩ => ⟨S_, .f32⟩
  | .hbm, ⟨17, _⟩ => ⟨S1024x10x128, .f32⟩
  | .hbm, ⟨18, _⟩ => ⟨S1024x10x128, .f32⟩
  | .hbm, ⟨19, _⟩ => ⟨S1024x10x128, .f32⟩
  | .hbm, ⟨20, _⟩ => ⟨S_, .f32⟩
  | .hbm, ⟨21, _⟩ => ⟨S1024x10x128, .f32⟩
  | .hbm, ⟨22, _⟩ => ⟨S1024x10x128, .f32⟩
  | .hbm, ⟨23, _⟩ => ⟨S1024x10x128, .f32⟩
  | .hbm, ⟨24, _⟩ => ⟨S1024x10x256, .f32⟩
  | .hbm, ⟨25, _⟩ => ⟨S1x1x256, .f32⟩
  | .hbm, ⟨26, _⟩ => ⟨S1024x10x256, .f32⟩
  | .hbm, ⟨27, _⟩ => ⟨S1024x10x256, .f32⟩
  | .hbm, ⟨28, _⟩ => ⟨S_, .f32⟩
  | .hbm, ⟨29, _⟩ => ⟨S1024x10x256, .f32⟩
  | .hbm, ⟨30, _⟩ => ⟨S1024x10x256, .f32⟩
  | _, _ => ⟨S1024x10x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call0_cst : Ref sig .tc := ⟨.hbm, 28, rfl⟩
abbrev main_call0_v0 : Ref sig .tc := ⟨.hbm, 29, rfl⟩
abbrev main_v16 : Ref sig .tc := ⟨.hbm, 30, rfl⟩

abbrev nD : Nat := 1
abbrev τ : Topo := Topo.v7x

variable {F : FTy → Type} [FloatOps F]

class Facts₀ : Prop where
  reducesTo_S1024x10x32x128_S1024x10x128_d2 : S1024x10x32x128.ReducesTo [2] S1024x10x128
  h_S_ : 0 < S_.numel
  bcast_S_S1024x10x128 : S_.BroadcastsInDim S1024x10x128 (![] : Fin 0 → Fin S1024x10x128.rank)
  concatenates_S1024x10x128_S1024x10x128_S1024x10x256_d2 : Shape.Concatenates [S1024x10x128, S1024x10x128] S1024x10x256 2
  bcast_S256_S1x1x256_2 : S256.BroadcastsInDim S1x1x256 (![2] : Fin 1 → Fin S1x1x256.rank)
  bcast_S1x1x256_S1024x10x256_0_1_2 : S1x1x256.BroadcastsInDim S1024x10x256 (![0, 1, 2] : Fin 3 → Fin S1024x10x256.rank)
  bcast_S_S1024x10x256 : S_.BroadcastsInDim S1024x10x256 (![] : Fin 0 → Fin S1024x10x256.rank)
  dot_S1024x10x128_S128x128_S1024x10x128_2_0_01_1_n_n_wf : DotDims.WF S1024x10x128 S128x128 S1024x10x128 [2] [0] [0, 1] [1] [] []

variable [Facts₀]

def dot_S1024x10x128_S128x128_S1024x10x128_2_0_01_1_n_n : DotDims S1024x10x128 S128x128 S1024x10x128 where
  lhsContracting := [2]
  rhsContracting := [0]
  lhsNonContracting := [0, 1]
  rhsNonContracting := [1]
  lhsBatch := []
  rhsBatch := []
  wf := dot_S1024x10x128_S128x128_S1024x10x128_2_0_01_1_n_n_wf

class Facts : Prop extends Facts₀ where

variable [Facts]
-- ==== Proof.Spec.lean ====
/-
  The layer both programs compute, as ONE function of the seven argument arrays, index by index, over the extended
  reals.  For a node (b, h) and an output column d of 256:

    d < 128   (own half)         Σ_k x_self[b,h,k] · w_self[k,d]
    d ≥ 128   (neighbour half)   ( (Σ_k S₀[k] · w₀[k,d']) / 32  +  (Σ_k S₁[k] · w₁[k,d']) / 32 ) / 2 ,   d' = d − 128,
                                 S_r[k] = 0 + Σ_{n<32} x_r[b,h,n,k]   (the sum over the 32 neighbours of relation r)

  then the bias b[d] is added and the result is clipped below at zero.  This is the order in which the plain
  array program writes it (`layer`).  The tiled program computes the neighbour half differently
  (`fusedNeigh`): each neighbour sum is taken in four runs of eight, scaled by 1/64 BEFORE the projection, the
  two scaled sums are laid side by side (256 columns) and contracted ONCE against the two weight matrices
  stacked on top of each other.  That the two agree is real arithmetic (module Algebra), valid where every
  entry is a real number.
-/
import Idealize.ShloMosaic.PureOps.Ideal
import Idealize.ShloMosaic.PureOps.Ideal.Laws
import Idealize.ShloMosaic.Lib.ValueIdx

noncomputable section

open scoped BigOperators

namespace Cert.NeighMean

open Idealize.ShloMosaic Idealize.ShloMosaic.ValueIdx

/-- Own features: [1024, 10, 128]. -/
abbrev SelfArr : Type := (⟨3, ![1024, 10, 128]⟩ : Shape).Idx → EReal
/-- One relation's neighbour features: [1024, 10, 32, 128]. -/
abbrev NeighArr : Type := (⟨4, ![1024, 10, 32, 128]⟩ : Shape).Idx → EReal
/-- A projection matrix: [128, 128]. -/
abbrev WArr : Type := (⟨2, ![128, 128]⟩ : Shape).Idx → EReal
/-- The bias: [256]. -/
abbrev BiasArr : Type := (⟨1, ![256]⟩ : Shape).Idx → EReal
/-- The result: [1024, 10, 256]. -/
abbrev OutArr : Type := (⟨3, ![1024, 10, 256]⟩ : Shape).Idx → EReal

/-- The four float constants of the two programs. -/
abbrev zeroLit : EReal := Ideal.ofBits .f32 0x00000000#32
abbrev lit32 : EReal := Ideal.ofBits .f32 0x42000000#32
abbrev lit2 : EReal := Ideal.ofBits .f32 0x40000000#32
abbrev lit64th : EReal := Ideal.ofBits .f32 0x3C800000#32

/-- A node's own features projected: row (b, h) of x_self times column d of w_self. -/
def selfProj (xs : SelfArr) (ws : WArr) (b : Fin 1024) (h : Fin 10) (d : Fin 128) : EReal :=
  ∑ k : Fin 128, xs (ix3 b h k) * ws (ix2 k d)

/-- The sum of feature k over a node's 32 neighbours, started from the zero constant. -/
def neighSum (x : NeighArr) (b : Fin 1024) (h : Fin 10) (k : Fin 128) : EReal :=
  zeroLit + ∑ n : Fin 32, x (ix4 b h n k)

/-- One relation's neighbour sum projected. -/
def relProj (x : NeighArr) (w : WArr) (b : Fin 1024) (h : Fin 10) (d : Fin 128) : EReal :=
  ∑ k : Fin 128, neighSum x b h k * w (ix2 k d)

/-- The neighbour half as the plain program writes it: each projection divided by 32, the two added, the sum halved. -/
def neighMean (x1 x2 : NeighArr) (w1 w2 : WArr) (b : Fin 1024) (h : Fin 10) (d : Fin 128) : EReal :=
  Ideal.div (Ideal.div (relProj x1 w1 b h d) lit32 + Ideal.div (relProj x2 w2 b h d) lit32) lit2

/-- Column d of 256 before bias and clipping: the own half below 128, the neighbour half from 128 on. -/
def preact (xs : SelfArr) (x1 x2 : NeighArr) (ws w1 w2 : WArr) (b : Fin 1024) (h : Fin 10) (d : Fin 256) : EReal :=
  if hd : d.val < 128 then selfProj xs ws b h ⟨d.val, hd⟩
  else neighMean x1 x2 w1 w2 b h ⟨d.val - 128, by have := d.isLt; omega⟩

/-- THE LAYER: bias added, clipped below at zero. -/
def layer (xs : SelfArr) (x1 x2 : NeighArr) (ws w1 w2 : WArr) (bias : BiasArr) : OutArr :=
  fun i => max (preact xs x1 x2 ws w1 w2 (i 0) (i 1) (i 2) + bias (ix1 (i 2))) zeroLit

/-! ## The tiled program's neighbour half -/

/-- Eight consecutive neighbours, from neighbour `off` on, summed. -/
def run8 (x : NeighArr) (b : Fin 1024) (h : Fin 10) (k : Fin 128) (off : Nat) (hoff : off + 8 ≤ 32) : EReal :=
  ∑ j : Fin 8, x (ix4 b h ⟨off + j.val, by have := j.isLt; omega⟩ k)

/-- The 32 neighbours summed in four runs of eight, accumulated left to right from the zero constant. -/
def runSum (x : NeighArr) (b : Fin 1024) (h : Fin 10) (k : Fin 128) : EReal :=
  (((zeroLit + run8 x b h k 0 (by omega)) + run8 x b h k 8 (by omega)) + run8 x b h k 16 (by omega)) + run8 x b h k 24 (by omega)

/-- The two scaled sums side by side: column k of 256 is relation 0's below 128, relation 1's from 128 on. -/
def scaledPair (x1 x2 : NeighArr) (b : Fin 1024) (h : Fin 10) (k : Fin 256) : EReal :=
  if hk : k.val < 128 then runSum x1 b h ⟨k.val, hk⟩ * lit64th
  else runSum x2 b h ⟨k.val - 128, by have := k.isLt; omega⟩ * lit64th

/-- The two weight matrices stacked: row k of 256 is w₀'s below 128, w₁'s from 128 on. -/
def stacked (w1 w2 : WArr) (k : Fin 256) (d : Fin 128) : EReal :=
  if hk : k.val < 128 then w1 (ix2 ⟨k.val, hk⟩ d) else w2 (ix2 ⟨k.val - 128, by have := k.isLt; omega⟩ d)

/-- The neighbour half as the tiled program computes it: ONE contraction of length 256. -/
def fusedNeigh (x1 x2 : NeighArr) (w1 w2 : WArr) (b : Fin 1024) (h : Fin 10) (d : Fin 128) : EReal :=
  ∑ k : Fin 256, scaledPair x1 x2 b h k * stacked w1 w2 k d

/-- Column d of 256 before bias and clipping, as the tiled program computes it. -/
def fusedPreact (xs : SelfArr) (x1 x2 : NeighArr) (ws w1 w2 : WArr) (b : Fin 1024) (h : Fin 10) (d : Fin 256) : EReal :=
  if hd : d.val < 128 then selfProj xs ws b h ⟨d.val, hd⟩
  else fusedNeigh x1 x2 w1 w2 b h ⟨d.val - 128, by have := d.isLt; omega⟩

/-- An array all of whose entries are real numbers. -/
def AllReal {ι : Type} (x : ι → EReal) : Prop := ∀ i, ∃ r : ℝ, x i = (r : EReal)

end Cert.NeighMean

end
-- ==== Proof.Algebra.lean ====
/-
  The neighbour half of the layer, computed two ways, is the same number wherever every entry is real.

  The plain form:   ( (Σ_k S₀[k]·w₀[k,d]) / 32 + (Σ_k S₁[k]·w₁[k,d]) / 32 ) / 2,   S_r[k] = 0 + Σ_{n<32} x_r[n,k].
  The tiled form:   Σ_{k<256} P[k] · W[k,d],  where P lays (T₀[k]·(1/64)) and (T₁[k]·(1/64)) side by side,
                    W stacks w₀ on w₁, and T_r[k] sums the 32 neighbours in four runs of eight from 0.

  Three steps.  (1) Regrouping a sum of 32 terms into four runs of eight, and a sum of 256 terms into two of 128,
  holds in any commutative monoid, the extended reals included; so T_r = S_r and the tiled form is
  Σ_{k<128} S₀[k]·(1/64)·w₀[k,d] + Σ_{k<128} S₁[k]·(1/64)·w₁[k,d].  (2) The three constants are the reals
  32, 2 and 1/64, and dividing by a nonzero real is multiplying by its reciprocal.  (3) Moving the factor 1/64
  out of a sum, and (a·(1/32) + b·(1/32))·(1/2) = (1/64)·a + (1/64)·b, are identities of the real field; they
  FAIL on the extended reals at ±∞ (distributivity does), which is why every entry is assumed real: all the
  entries are written as coercions of reals, the coercion is pushed outwards through products and sums, and
  the identity is proved in ℝ.
-/
import proofs.«165272_j50294067036664_2_alg».proof.Proof.Spec

noncomputable section

open scoped BigOperators

namespace Cert.NeighMean

open Idealize.ShloMosaic Idealize.ShloMosaic.ValueIdx

/-! ## The constants -/

/-- The pattern 0x00000000 denotes 0. -/
theorem zeroLit_eq : zeroLit = 0 := Ideal.ofBits_zero_f32

/-- The pattern 0x42000000 (exponent 132, fraction 0) denotes 2^5 = 32. -/
theorem lit32_eq : lit32 = ((32 : ℝ) : EReal) := by
  show Ideal.ofBits .f32 0x42000000#32 = _
  simp [Ideal.ofBits, Ideal.ieee, -EReal.coe_mul]; norm_num

/-- The pattern 0x40000000 (exponent 128, fraction 0) denotes 2^1 = 2. -/
theorem lit2_eq : lit2 = ((2 : ℝ) : EReal) := by
  show Ideal.ofBits .f32 0x40000000#32 = _
  simp [Ideal.ofBits, Ideal.ieee, -EReal.coe_mul]; norm_num

/-- The pattern 0x3C800000 (exponent 121, fraction 0) denotes 2^(-6) = 1/64. -/
theorem lit64th_eq : lit64th = ((1 / 64 : ℝ) : EReal) := by
  show Ideal.ofBits .f32 0x3C800000#32 = _
  simp [Ideal.ofBits, Ideal.ieee, -EReal.coe_mul]; norm_num

/-- Dividing by the constant 32 is multiplying by the real 1/32, at every extended real. -/
theorem div_lit32 (s : EReal) : Ideal.div s lit32 = s * ((1 / 32 : ℝ) : EReal) := by
  rw [lit32_eq]; exact Ideal.div_coe (by norm_num) s

/-- Dividing by the constant 2 is multiplying by the real 1/2, at every extended real. -/
theorem div_lit2 (s : EReal) : Ideal.div s lit2 = s * ((1 / 2 : ℝ) : EReal) := by
  rw [lit2_eq]; exact Ideal.div_coe (by norm_num) s

/-! ## Sums: coercion, and regrouping in a commutative monoid -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over 256 indices is the sum over the first 128 plus the sum over the last 128. -/
theorem sum_split256 {M : Type} [AddCommMonoid M] (F : Fin 256 → M) :
    ∑ k : Fin 256, F k = ∑ k : Fin 128, F (Fin.castAdd 128 k) + ∑ k : Fin 128, F (Fin.natAdd 128 k) :=
  Fin.sum_univ_add (a := 128) (b := 128) F

/-- A sum over 32 indices is the sum of its four runs of eight, taken left to right. -/
theorem sum_runs {M : Type} [AddCommMonoid M] (f : Fin 32 → M) :
    ∑ n : Fin 32, f n =
      (((∑ j : Fin 8, f ⟨0 + j.val, by have := j.isLt; omega⟩) + ∑ j : Fin 8, f ⟨8 + j.val, by have := j.isLt; omega⟩)
        + ∑ j : Fin 8, f ⟨16 + j.val, by have := j.isLt; omega⟩) + ∑ j : Fin 8, f ⟨24 + j.val, by have := j.isLt; omega⟩ := by
  have e1 : ∑ n : Fin 32, f n = ∑ i : Fin 24, f (Fin.castAdd 8 i) + ∑ i : Fin 8, f (Fin.natAdd 24 i) :=
    Fin.sum_univ_add (a := 24) (b := 8) f
  have e2 : ∑ i : Fin 24, f (Fin.castAdd 8 i)
      = ∑ i : Fin 16, f (Fin.castAdd 8 (Fin.castAdd 8 i)) + ∑ i : Fin 8, f (Fin.castAdd 8 (Fin.natAdd 16 i)) :=
    Fin.sum_univ_add (a := 16) (b := 8) (fun i => f (Fin.castAdd 8 i))
  have e3 : ∑ i : Fin 16, f (Fin.castAdd 8 (Fin.castAdd 8 i))
      = ∑ i : Fin 8, f (Fin.castAdd 8 (Fin.castAdd 8 (Fin.castAdd 8 i)))
        + ∑ i : Fin 8, f (Fin.castAdd 8 (Fin.castAdd 8 (Fin.natAdd 8 i))) :=
    Fin.sum_univ_add (a := 8) (b := 8) (fun i => f (Fin.castAdd 8 (Fin.castAdd 8 i)))
  have t0 : ∀ j : Fin 8, f (Fin.castAdd 8 (Fin.castAdd 8 (Fin.castAdd 8 j)))
      = f ⟨0 + j.val, by have := j.isLt; omega⟩ :=
    fun j => congrArg f (Fin.ext (Nat.zero_add _).symm)
  rw [e1, e2, e3]
  simp only [t0]
  rfl

/-! ## The tiled form, regrouped -/

/-- The four runs of eight add up to the plain neighbour sum. -/
theorem runSum_eq_neighSum (x : NeighArr) (b : Fin 1024) (h : Fin 10) (k : Fin 128) :
    runSum x b h k = neighSum x b h k := by
  unfold runSum neighSum run8
  rw [sum_runs (fun n => x (ix4 b h n k))]
  simp only [add_assoc]

/-- Below column 128 the pair holds relation 0's scaled sum. -/
theorem scaledPair_lo (x1 x2 : NeighArr) (b : Fin 1024) (h : Fin 10) (k : Fin 128) :
    scaledPair x1 x2 b h (Fin.castAdd 128 k) = runSum x1 b h k * lit64th := by
  unfold scaledPair
  split
  · rfl
  · rename_i hk; exact absurd k.isLt hk

/-- From column 128 on the pair holds relation 1's scaled sum. -/
theorem scaledPair_hi (x1 x2 : NeighArr) (b : Fin 1024) (h : Fin 10) (k : Fin 128) :
    scaledPair x1 x2 b h (Fin.natAdd 128 k) = runSum x2 b h k * lit64th := by
  unfold scaledPair
  split
  · rename_i hk
    have h1 : (Fin.natAdd 128 k).val = 128 + k.val := Fin.coe_natAdd 128 k
    omega
  · congr 2
    exact Fin.ext (by simp)

/-- Below row 128 the stack holds w₀. -/
theorem stacked_lo (w1 w2 : WArr) (k : Fin 128) (d : Fin 128) :
    stacked w1 w2 (Fin.castAdd 128 k) d = w1 (ix2 k d) := by
  unfold stacked
  split
  · rfl
  · rename_i hk; exact absurd k.isLt hk

/-- From row 128 on the stack holds w₁. -/
theorem stacked_hi (w1 w2 : WArr) (k : Fin 128) (d : Fin 128) :
    stacked w1 w2 (Fin.natAdd 128 k) d = w2 (ix2 k d) := by
  unfold stacked
  split
  · rename_i hk
    have h1 : (Fin.natAdd 128 k).val = 128 + k.val := Fin.coe_natAdd 128 k
    omega
  · congr 2
    exact Fin.ext (by simp)

/-- The tiled form as two sums of 128 terms over the plain neighbour sums (no finiteness needed). -/
theorem fusedNeigh_split (x1 x2 : NeighArr) (w1 w2 : WArr) (b : Fin 1024) (h : Fin 10) (d : Fin 128) :
    fusedNeigh x1 x2 w1 w2 b h d
      = ∑ k : Fin 128, neighSum x1 b h k * lit64th * w1 (ix2 k d)
        + ∑ k : Fin 128, neighSum x2 b h k * lit64th * w2 (ix2 k d) := by
  unfold fusedNeigh
  rw [sum_split256]
  simp only [scaledPair_lo, scaledPair_hi, stacked_lo, stacked_hi, runSum_eq_neighSum]

/-! ## The arithmetic, in the reals -/

/-- A neighbour sum of real entries is the coercion of the real sum. -/
theorem neighSum_coe (x : NeighArr) (r : (⟨4, ![1024, 10, 32, 128]⟩ : Shape).Idx → ℝ) (hr : ∀ i, x i = (r i : EReal))
    (b : Fin 1024) (h : Fin 10) (k : Fin 128) :
    neighSum x b h k = ((∑ n : Fin 32, r (ix4 b h n k) : ℝ) : EReal) := by
  unfold neighSum
  rw [zeroLit_eq, zero_add, coe_sum]
  exact Finset.sum_congr rfl (fun n _ => hr _)

/-- The factor 1/64 inside each term of the two contractions is the 1/32 and the 1/2 applied afterwards. -/
theorem core (s1 s2 v1 v2 : Fin 128 → ℝ) :
    (∑ k : Fin 128, ((s1 k : ℝ) : EReal) * ((1 / 64 : ℝ) : EReal) * ((v1 k : ℝ) : EReal))
        + ∑ k : Fin 128, ((s2 k : ℝ) : EReal) * ((1 / 64 : ℝ) : EReal) * ((v2 k : ℝ) : EReal)
      = ((∑ k : Fin 128, ((s1 k : ℝ) : EReal) * ((v1 k : ℝ) : EReal)) * ((1 / 32 : ℝ) : EReal)
          + (∑ k : Fin 128, ((s2 k : ℝ) : EReal) * ((v2 k : ℝ) : EReal)) * ((1 / 32 : ℝ) : EReal))
        * ((1 / 2 : ℝ) : EReal) := by
  simp only [← EReal.coe_mul, ← coe_sum, ← EReal.coe_add]
  rw [EReal.coe_eq_coe_iff]
  have hs : ∀ (s v : Fin 128 → ℝ), ∑ k : Fin 128, s k * (1 / 64) * v k = (1 / 64) * ∑ k : Fin 128, s k * v k := by
    intro s v
    rw [Finset.mul_sum]
    exact Finset.sum_congr rfl (fun k _ => by ring)
  rw [hs, hs]
  ring

/-! ## The two statements -/

/-- The tiled neighbour half equals the plain one where every entry is real. -/
theorem fusedNeigh_eq_neighMean (x1 x2 : NeighArr) (w1 w2 : WArr)
    (hx1 : AllReal x1) (hx2 : AllReal x2) (hw1 : AllReal w1) (hw2 : AllReal w2)
    (b : Fin 1024) (h : Fin 10) (d : Fin 128) :
    fusedNeigh x1 x2 w1 w2 b h d = neighMean x1 x2 w1 w2 b h d := by
  choose r1 hr1 using hx1
  choose r2 hr2 using hx2
  choose q1 hq1 using hw1
  choose q2 hq2 using hw2
  rw [fusedNeigh_split]
  unfold neighMean relProj
  simp only [div_lit32, div_lit2, lit64th_eq, neighSum_coe x1 r1 hr1, neighSum_coe x2 r2 hr2, hq1, hq2]
  exact core _ _ _ _

/-- The two pre-activations agree column by column: the own half is the same expression, the neighbour half is the
    statement above. -/
theorem fusedPreact_eq_preact (xs : SelfArr) (x1 x2 : NeighArr) (ws w1 w2 : WArr)
    (hx1 : AllReal x1) (hx2 : AllReal x2) (hw1 : AllReal w1) (hw2 : AllReal w2)
    (b : Fin 1024) (h : Fin 10) (d : Fin 256) :
    fusedPreact xs x1 x2 ws w1 w2 b h d = preact xs x1 x2 ws w1 w2 b h d := by
  unfold fusedPreact preact
  split
  · rfl
  · exact fusedNeigh_eq_neighMean x1 x2 w1 w2 hx1 hx2 hw1 hw2 b h _

end Cert.NeighMean

end
-- ==== Proof.Finite.lean ====
/-
  The precondition "every float input is finite", read back at the extended reals.

  The printed predicate computes, for each of the seven argument arrays x, the one-bit word  all(|x| < +∞):  the
  absolute value max x (-x) at every index, compared (strictly below) with the constant whose f32 pattern
  0x7F800000 denotes +∞, the one-bit results folded by `and` over every axis; the seven words are then joined
  by `and`, and the claim's hypothesis is that the result is 1.

  A conjunction of one-bit words is 1 only if each is; a fold by `and` that is 1 met a 1 at every index; and
  an extended real x with  max x (-x) < ⊤  is neither ⊥ (whose negation is ⊤) nor ⊤, hence a real number.
  So every entry of each of the seven arrays is a real number.
-/
import proofs.«165272_j50294067036664_2_alg».proof.Pre_finite_inputs
import proofs.«165272_j50294067036664_2_alg».proof.Proof.Gen.Pre_finite_inputs
import Idealize.ShloMosaic.PureOps.Ideal.Laws
import Idealize.ShloMosaic.Lib.ReduceAll
import Idealize.ShloMosaic.Lib.ValueIdx
import proofs.«165272_j50294067036664_2_alg».proof.Proof.Spec

noncomputable section

namespace Cert.NeighMean

open Idealize.ShloMosaic

/-- The f32 pattern 0x7F800000 (sign 0, exponent all ones, significand 0) denotes +∞. -/
theorem ofBits_inf_f32 : Ideal.ofBits .f32 0x7F800000#32 = (⊤ : EReal) := by
  simp [Ideal.ofBits, Ideal.ieee]

/-- An extended real whose absolute value max x (-x) lies strictly below +∞ is a real number: at ⊥ the
    negation is ⊤, at ⊤ the value itself is, and in both cases the maximum is ⊤. -/
theorem exists_real_of_abs_lt_top (x : EReal) (h : max x (-x) < (⊤ : EReal)) : ∃ r : ℝ, x = (r : EReal) := by
  induction x using EReal.rec with
  | bot => simp at h
  | coe r => exact ⟨r, rfl⟩
  | top => simp at h

/-- A one-bit comparison word is 1 exactly when the comparison holds. -/
theorem cmp_olt_eq_one {a b : EReal} (h : Ideal.cmp .olt a b = 1#1) : a < b := by
  unfold Ideal.cmp at h
  by_contra hn
  simp [hn] at h

/-- The result index of a reduction over every axis: rank 0 has exactly one index. -/
instance subsingleton_scalarIdx : Subsingleton Cert.Pre_finite_inputs.S_.Idx :=
  ⟨fun a b => funext fun d => d.elim0⟩

/-- One array: if the fold by `and`, over all axes, of the words  |x i| < c i  is 1 and c is +∞ everywhere,
    then every entry of x is a real number. -/
theorem allReal_of_all_lt_inf {s t u : Shape} [Subsingleton t.Idx] {axes : List (Fin s.rank)}
    (x c : FVec Ideal s .f32) (hc : ∀ i, c i = (⊤ : EReal)) (init : IVec u 1)
    (hr : s.ReducesTo axes t) (hu : 0 < u.numel) (j : t.Idx)
    (e : Host.reduce IntOp.andi (cmpf .olt (Host.absf x) c) init hr hu j = 1#1) : AllReal x := by
  intro i
  have hi : cmpf .olt (Host.absf x) c i = 1#1 := Host.reduce_andi_all _ init hr hu j e i
  have hcmp : Ideal.cmp .olt (max (x i) (-(x i))) (c i) = 1#1 := hi
  rw [hc i] at hcmp
  exact exists_real_of_abs_lt_top _ (cmp_olt_eq_one hcmp)

/-- The precondition decoded: all seven argument arrays consist of real numbers. -/
theorem allReal_of_finite_inputs [Cert.Pre_finite_inputs.Facts]
    (a0 : FVec Ideal Cert.Pre_finite_inputs.S1024x10x128 .f32) (a1 a2 : FVec Ideal Cert.Pre_finite_inputs.S1024x10x32x128 .f32)
    (a3 a4 a5 : FVec Ideal Cert.Pre_finite_inputs.S128x128 .f32) (a6 : FVec Ideal Cert.Pre_finite_inputs.S256 .f32)
    (h : Cert.Pre_finite_inputs.fn (F := Ideal) a0 a1 a2 a3 a4 a5 a6 = fun _ => 1#1) :
    AllReal a0 ∧ AllReal a1 ∧ AllReal a2 ∧ AllReal a3 ∧ AllReal a4 ∧ AllReal a5 ∧ AllReal a6 := by
  have h0 := congrFun h Idealize.ShloMosaic.ValueIdx.ix0
  dsimp only [Cert.Pre_finite_inputs.fn, Cert.Pre_finite_inputs.fn_part1, andi] at h0
  simp only [IntOp.andi_eq_one] at h0
  obtain ⟨⟨⟨⟨⟨⟨e0, e1⟩, e2⟩, e3⟩, e4⟩, e5⟩, e6⟩ := h0
  -- the compared constant is +∞ at every index: a broadcast of the splat of the pattern 0x7F800000
  refine ⟨allReal_of_all_lt_inf a0 _ (fun _ => ofBits_inf_f32) _ _ _ _ e0,
    allReal_of_all_lt_inf a1 _ (fun _ => ofBits_inf_f32) _ _ _ _ e1,
    allReal_of_all_lt_inf a2 _ (fun _ => ofBits_inf_f32) _ _ _ _ e2,
    allReal_of_all_lt_inf a3 _ (fun _ => ofBits_inf_f32) _ _ _ _ e3,
    allReal_of_all_lt_inf a4 _ (fun _ => ofBits_inf_f32) _ _ _ _ e4,
    allReal_of_all_lt_inf a5 _ (fun _ => ofBits_inf_f32) _ _ _ _ e5,
    allReal_of_all_lt_inf a6 _ (fun _ => ofBits_inf_f32) _ _ _ _ e6⟩

end Cert.NeighMean

end
-- ==== Proof.RefValue.lean ====
/-
  The plain array program's result is the layer of module Spec, index by index, over the extended reals, with no
  hypothesis on the entries.

  The program is read one operation at a time through the generated reading lemmas: the result at (b, h, d) is
  the maximum of [joined (b, h, d) + bias d] and the zero constant; the joined array is the own projection in
  columns d < 128 and the neighbour mean in columns d ≥ 128 (column d − 128 of it); the own projection at
  (b, h, d') is Σ_k x_self[b,h,k] · w_self[k,d']; the neighbour mean at (b, h, d') is
  ((Σ_k S₀[k]·w₀[k,d']) / 32 + (Σ_k S₁[k]·w₁[k,d']) / 32) / 2 with S_r[k] = 0 + Σ_{n<32} x_r[b,h,n,k].
  Each step is the operation's reading lemma followed by an equation between index functions, proved coordinate
  by coordinate; the operations on values (sum, quotient, maximum, constants) are those of Spec by definition.
-/
import proofs.«165272_j50294067036664_2_alg».proof.Proof.Gen.ReferenceIdeal.Read
import proofs.«165272_j50294067036664_2_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Cert.NeighMean Idealize.ShloMosaic Idealize.ShloMosaic.ValueIdx

/-! ## Index functions at an index given by its coordinates -/

/-- The neighbour sum of relation 0 at (b, h, k) reads neighbour n at (b, h, n, k). -/
theorem idx_v0 (b : Fin 1024) (h : Fin 10) (k : Fin 128) (n : Fin 32) :
    idx_main_v0 (ix3 b h k) n = ix4 b h n k :=
  funext fun a => Fin.ext (by match a with | ⟨0, _⟩ => rfl | ⟨1, _⟩ => rfl | ⟨2, _⟩ => rfl | ⟨3, _⟩ => rfl)

/-- The neighbour sum of relation 1 at (b, h, k) reads neighbour n at (b, h, n, k). -/
theorem idx_v4 (b : Fin 1024) (h : Fin 10) (k : Fin 128) (n : Fin 32) :
    idx_main_v4 (ix3 b h k) n = ix4 b h n k :=
  funext fun a => Fin.ext (by match a with | ⟨0, _⟩ => rfl | ⟨1, _⟩ => rfl | ⟨2, _⟩ => rfl | ⟨3, _⟩ => rfl)

/-- Relation 0's projection at (b, h, d) reads its left operand at (b, h, k). -/
theorem lidx_v1 (b : Fin 1024) (h : Fin 10) (d k : Fin 128) : lidx_main_v1 (ix3 b h d) k = ix3 b h k :=
  funext fun a => Fin.ext (by match a with | ⟨0, _⟩ => rfl | ⟨1, _⟩ => rfl | ⟨2, _⟩ => rfl)

/-- Relation 0's projection at (b, h, d) reads its weights at (k, d). -/
theorem ridx_v1 (b : Fin 1024) (h : Fin 10) (d k : Fin 128) : ridx_main_v1 (ix3 b h d) k = ix2 k d :=
  funext fun a => Fin.ext (by match a with | ⟨0, _⟩ => rfl | ⟨1, _⟩ => rfl)

/-- Relation 1's projection at (b, h, d) reads its left operand at (b, h, k). -/
theorem lidx_v5 (b : Fin 1024) (h : Fin 10) (d k : Fin 128) : lidx_main_v5 (ix3 b h d) k = ix3 b h k :=
  funext fun a => Fin.ext (by match a with | ⟨0, _⟩ => rfl | ⟨1, _⟩ => rfl | ⟨2, _⟩ => rfl)

/-- Relation 1's projection at (b, h, d) reads its weights at (k, d). -/
theorem ridx_v5 (b : Fin 1024) (h : Fin 10) (d k : Fin 128) : ridx_main_v5 (ix3 b h d) k = ix2 k d :=
  funext fun a => Fin.ext (by match a with | ⟨0, _⟩ => rfl | ⟨1, _⟩ => rfl)

/-- The own projection at (b, h, d) reads the own features at (b, h, k). -/
theorem lidx_v11 (b : Fin 1024) (h : Fin 10) (d k : Fin 128) : lidx_main_v11 (ix3 b h d) k = ix3 b h k :=
  funext fun a => Fin.ext (by match a with | ⟨0, _⟩ => rfl | ⟨1, _⟩ => rfl | ⟨2, _⟩ => rfl)

/-- The own projection at (b, h, d) reads its weights at (k, d). -/
theorem ridx_v11 (b : Fin 1024) (h : Fin 10) (d k : Fin 128) : ridx_main_v11 (ix3 b h d) k = ix2 k d :=
  funext fun a => Fin.ext (by match a with | ⟨0, _⟩ => rfl | ⟨1, _⟩ => rfl)

/-- The bias, spread over the nodes, is read at column d. -/
theorem idx_bias (b : Fin 1024) (h : Fin 10) (d : Fin 256) : idx_main_v13 (idx_main_v14 (ix3 b h d)) = ix1 d :=
  funext fun a => Fin.ext (by match a with | ⟨0, _⟩ => rfl)

/-! ## The neighbour half -/

/-- Relation 0's reduction over the 32 neighbours is Spec's neighbour sum. -/
theorem v0_eq (x1 : (⟨S1024x10x32x128, .f32⟩ : BufTy).Contents (Elt Ideal)) (b : Fin 1024) (h : Fin 10) (k : Fin 128) :
    val_main_v0 (F := Ideal) x1 (ix3 b h k) = neighSum x1 b h k := by
  rw [val_main_v0_apply]
  show zeroLit + ∑ n : Fin 32, x1 (idx_main_v0 (ix3 b h k) n) = zeroLit + ∑ n : Fin 32, x1 (ix4 b h n k)
  simp only [idx_v0]

/-- Relation 1's reduction over the 32 neighbours is Spec's neighbour sum. -/
theorem v4_eq (x2 : (⟨S1024x10x32x128, .f32⟩ : BufTy).Contents (Elt Ideal)) (b : Fin 1024) (h : Fin 10) (k : Fin 128) :
    val_main_v4 (F := Ideal) x2 (ix3 b h k) = neighSum x2 b h k := by
  rw [val_main_v4_apply]
  show zeroLit + ∑ n : Fin 32, x2 (idx_main_v4 (ix3 b h k) n) = zeroLit + ∑ n : Fin 32, x2 (ix4 b h n k)
  simp only [idx_v4]

/-- Relation 0's contraction is Spec's projected neighbour sum. -/
theorem v1_eq (x1 : (⟨S1024x10x32x128, .f32⟩ : BufTy).Contents (Elt Ideal)) (x4 : (⟨S128x128, .f32⟩ : BufTy).Contents (Elt Ideal)) (b : Fin 1024) (h : Fin 10) (d : Fin 128) :
    val_main_v1 (F := Ideal) x1 x4 (ix3 b h d) = relProj x1 x4 b h d := by
  rw [val_main_v1_apply]
  unfold relProj
  refine Finset.sum_congr rfl fun k _ => ?_
  rw [lidx_v1, ridx_v1, v0_eq]

/-- Relation 1's contraction is Spec's projected neighbour sum. -/
theorem v5_eq (x2 : (⟨S1024x10x32x128, .f32⟩ : BufTy).Contents (Elt Ideal)) (x5 : (⟨S128x128, .f32⟩ : BufTy).Contents (Elt Ideal)) (b : Fin 1024) (h : Fin 10) (d : Fin 128) :
    val_main_v5 (F := Ideal) x2 x5 (ix3 b h d) = relProj x2 x5 b h d := by
  rw [val_main_v5_apply]
  unfold relProj
  refine Finset.sum_congr rfl fun k _ => ?_
  rw [lidx_v5, ridx_v5, v4_eq]

/-- The two quotients by 32, their sum and its quotient by 2 are Spec's neighbour mean. -/
theorem neigh_half (x1 x2 : (⟨S1024x10x32x128, .f32⟩ : BufTy).Contents (Elt Ideal)) (x4 x5 : (⟨S128x128, .f32⟩ : BufTy).Contents (Elt Ideal)) (b : Fin 1024) (h : Fin 10) (d : Fin 128) :
    val_main_v10 (F := Ideal) x1 x2 x4 x5 (ix3 b h d) = neighMean x1 x2 x4 x5 b h d := by
  rw [val_main_v10_apply, val_main_v9_apply, val_main_cst_3_apply, val_main_v8_apply, val_main_v3_apply,
    val_main_v7_apply, val_main_v2_apply, val_main_v6_apply, val_main_cst_0_apply, val_main_cst_2_apply,
    v1_eq, v5_eq]
  rfl

/-! ## The own half, and the join -/

/-- The own contraction is Spec's own projection. -/
theorem own_half (x0 : (⟨S1024x10x128, .f32⟩ : BufTy).Contents (Elt Ideal)) (x3 : (⟨S128x128, .f32⟩ : BufTy).Contents (Elt Ideal)) (b : Fin 1024) (h : Fin 10) (d : Fin 128) :
    val_main_v11 (F := Ideal) x0 x3 (ix3 b h d) = selfProj x0 x3 b h d := by
  rw [val_main_v11_apply]
  unfold selfProj
  refine Finset.sum_congr rfl fun k _ => ?_
  rw [lidx_v11, ridx_v11]

/-- The two halves joined along the columns are Spec's pre-activation: column d < 128 is column d of the own half,
    column d ≥ 128 is column d − 128 of the neighbour half. -/
theorem join_eq (x0 : (⟨S1024x10x128, .f32⟩ : BufTy).Contents (Elt Ideal)) (x1 x2 : (⟨S1024x10x32x128, .f32⟩ : BufTy).Contents (Elt Ideal)) (x3 x4 x5 : (⟨S128x128, .f32⟩ : BufTy).Contents (Elt Ideal)) (b : Fin 1024) (h : Fin 10) (d : Fin 256) :
    val_main_v12 (F := Ideal) x0 x1 x2 x3 x4 x5 (ix3 b h d) = preact x0 x1 x2 x3 x4 x5 b h d := by
  unfold preact
  by_cases hd : d.val < 128
  · rw [dif_pos hd]
    unfold val_main_v12
    refine (concatenate_pair_apply_left (t := S1024x10x256) (s₁ := S1024x10x128) (s₂ := S1024x10x128) (2 : Fin 3)
      (val_main_v11 (F := Ideal) x0 x3) (val_main_v10 (F := Ideal) x1 x2 x4 x5)
      concatenates_S1024x10x128_S1024x10x128_S1024x10x256_d2
      (ix3 b h d : S1024x10x256.Idx) rfl (ix3 b h (⟨d.val, hd⟩ : Fin 128) : S1024x10x128.Idx)
      (fun a => by match a with | ⟨0, _⟩ => rfl | ⟨1, _⟩ => rfl | ⟨2, _⟩ => rfl)).trans ?_
    exact own_half x0 x3 b h ⟨d.val, hd⟩
  · rw [dif_neg hd]
    unfold val_main_v12
    refine (concatenate_pair_apply_right (t := S1024x10x256) (s₁ := S1024x10x128) (s₂ := S1024x10x128) (2 : Fin 3)
      (val_main_v11 (F := Ideal) x0 x3) (val_main_v10 (F := Ideal) x1 x2 x4 x5)
      concatenates_S1024x10x128_S1024x10x128_S1024x10x256_d2
      (ix3 b h d : S1024x10x256.Idx) rfl rfl
      (ix3 b h (⟨d.val - 128, by have := d.isLt; omega⟩ : Fin 128) : S1024x10x128.Idx)
      (fun a ha => by match a with | ⟨0, _⟩ => rfl | ⟨1, _⟩ => rfl | ⟨2, _⟩ => exact absurd rfl ha)
      (by show d.val - 128 + 128 = d.val; omega)).trans ?_
    exact neigh_half x1 x2 x4 x5 b h ⟨d.val - 128, by have := d.isLt; omega⟩

/-! ## The result -/

/-- The plain program's result is Spec's layer. -/
theorem val_eq_layer (x0 : (⟨S1024x10x128, .f32⟩ : BufTy).Contents (Elt Ideal)) (x1 x2 : (⟨S1024x10x32x128, .f32⟩ : BufTy).Contents (Elt Ideal)) (x3 x4 x5 : (⟨S128x128, .f32⟩ : BufTy).Contents (Elt Ideal)) (x6 : (⟨S256, .f32⟩ : BufTy).Contents (Elt Ideal)) :
    val_main_v16 (F := Ideal) x0 x1 x2 x3 x4 x5 x6 = layer x0 x1 x2 x3 x4 x5 x6 := by
  funext i
  obtain ⟨b, h, d, rfl⟩ : ∃ (b : Fin 1024) (h : Fin 10) (d : Fin 256), i = ix3 b h d := ⟨i 0, i 1, i 2, eq_ix3 i⟩
  rw [val_main_v16_apply, val_main_v15_apply, val_main_v14_apply, val_main_v13_apply, val_main_call0_v0_apply,
    val_main_call0_cst_apply, join_eq, idx_bias]
  rfl

end Cert.ReferenceIdeal.RefValue

end
-- ==== Proof.BlockValue.lean ====
/-
  What one grid point leaves in the output's staging buffer, as a pure function of the six input blocks.
  The body stores ONE rectangle, the whole [512, 256] block; every load reads a whole staging buffer except
  the eight loads of the two neighbour blocks, each of which reads eight of the 32 neighbour rows
  (rows 0–7, 8–15, 16–23, 24–31).  So the block left is the body's arithmetic applied to the own-feature
  block, the four row groups of each neighbour block, the stacked weights, the own weights and the bias row.
  Stated for every float instance.
-/
import proofs.«165272_j50294067036664_2_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx

namespace Cert.KernelIdeal.Tiled

open Cert.KernelIdeal Cert.KernelIdeal.Gen

variable {F : FTy → Type} [FloatOps F]

/-- Rank-2 zero offsets, however spelt. -/
theorem zero2 : (![0, 0] : Fin 2 → Nat) = fun _ => 0 := funext fun a => by fin_cases a <;> rfl

/-- Neighbour rows `off` … `off + 7` of a [512, 32, 128] block, as a [512, 8, 128] vector. -/
def rows8 (x : Vec F S512x32x128 .f32) (off : Nat) (hoff : off + 8 ≤ 32) : Vec F S512x8x128 .f32 :=
  fun y => x (ix3 (y 0) ⟨off + (y 1).val, by have := (y 1).isLt; have e : S512x8x128.size 1 = 8 := rfl; omega⟩ (y 2))

/-- A load of eight neighbour rows through the rectangle at offsets (0, off, 0) reads those rows. -/
theorem ld_rows8 (x : Vec F S512x32x128 .f32) (off : Nat) (hoff : off + 8 ≤ 32)
    (inb : ∀ a, (![0, off, 0] : Fin 3 → Nat) a + (![512, 8, 128] : Fin 3 → Nat) a ≤ S512x32x128.size a) :
    View.ld x (Rect.unit ![0, off, 0] ![512, 8, 128] inb) = rows8 x off hoff := by
  funext y
  show x _ = x _
  refine congrArg x (funext fun a => Fin.ext ?_)
  match a with
  | ⟨0, _⟩ => show 0 + 1 * (y 0).val = (y 0).val; omega
  | ⟨1, _⟩ => show off + 1 * (y 1).val = off + (y 1).val; omega
  | ⟨2, _⟩ => show 0 + 1 * (y 2).val = (y 2).val; omega

/-- The body's arithmetic on the six input blocks: the block a grid point writes back. -/
def blockOut (x0 : Vec F S512x128 .f32) (x1 x2 : Vec F S512x32x128 .f32) (x3 : Vec F S256x128 .f32)
    (x4 : Vec F S128x128 .f32) (x5 : Vec F S1x256 .f32) : Vec F S512x256 .f32 :=
  k0_pay1 (k0_pay2 x0)
    (k0_pay5 (k0_pay3 (rows8 x1 0 (by omega)) (rows8 x1 8 (by omega)) (rows8 x1 16 (by omega)) (rows8 x1 24 (by omega)))
      k0_pay4 (rows8 x2 0 (by omega)) (rows8 x2 8 (by omega)) (rows8 x2 16 (by omega)) (rows8 x2 24 (by omega)))
    (k0_pay6 x3) x4 x5

set_option backward.isDefEq.respectTransparency.types false in
/-- The staging buffer of the output, after the body on whole staging buffers holding the six blocks, holds `blockOut` of them. -/
theorem out_eq_blockOut (c : Dev nD) (i : grid0.Coords) (arg1 : Memref sig .tc .vmem S512x128 .f32) (harg1 : arg1.IsWhole) (arg2 : Memref sig .tc .vmem S512x32x128 .f32) (harg2 : arg2.IsWhole) (arg3 : Memref sig .tc .vmem S512x32x128 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S1x256 .f32) (harg6 : arg6.IsWhole) (arg7 : Memref sig .tc .vmem S512x256 .f32) (harg7 : arg7.IsWhole)
    (x0 : Vec F S512x128 .f32) (x1 : Vec F S512x32x128 .f32) (x2 : Vec F S512x32x128 .f32) (x3 : Vec F S256x128 .f32) (x4 : Vec F S128x128 .f32) (x5 : Vec F S1x256 .f32) :
    out0_A_6 c i arg1 harg1 arg2 harg2 arg3 harg3 arg4 harg4 arg5 harg5 arg6 harg6 arg7 harg7 x0 x1 x2 x3 x4 x5 = blockOut x0 x1 x2 x3 x4 x5 := by
  unfold out0_A_6
  rw [View.read_writes_eq_canon _ _ _ (cover0_A_6 c i arg1 harg1 arg2 harg2 arg3 harg3 arg4 harg4 arg5 harg5 arg6 harg6 arg7 harg7 x0 x1 x2 x3 x4 x5)]
  unfold kernelRun0_A
  dsimp only
  sl_unfold_words
  rw [View.canon_unit_zero zero2]
  simp only [View.readAt_eq_ld, harg1.read_unread, harg2.read_unread, harg3.read_unread, harg4.read_unread, harg5.read_unread, harg6.read_unread]
  rw [View.ld_unit_zero (S := S512x128) zero2, View.ld_unit_zero (S := S256x128) zero2, View.ld_unit_zero (S := S128x128) zero2,
    View.ld_unit_zero (S := S1x256) zero2]
  simp only [ld_rows8 x1 0 (by omega), ld_rows8 x1 8 (by omega), ld_rows8 x1 16 (by omega), ld_rows8 x1 24 (by omega),
    ld_rows8 x2 0 (by omega), ld_rows8 x2 8 (by omega), ld_rows8 x2 16 (by omega), ld_rows8 x2 24 (by omega)]
  rfl

end Cert.KernelIdeal.Tiled

end
-- ==== Proof.Tile.lean ====
/-
  One node's row of the tiled computation, over plain accessor functions: the sum over 32 neighbours taken in four
  runs of eight, the two scaled sums side by side, and the row's 256 output columns — the own half a
  contraction of length 128 with the own weights, the neighbour half ONE contraction of length 256 with the
  stacked weights.  Stated over accessors so that the same text reads a staged block (row p of a 512-row
  block) and the whole arrays (node (b, h)).
-/
import proofs.«165272_j50294067036664_2_alg».proof.Proof.Spec

noncomputable section

open scoped BigOperators

namespace Cert.NeighMean

open Idealize.ShloMosaic Idealize.ShloMosaic.ValueIdx

/-- Eight consecutive values of `f`, from `off` on, summed. -/
def run8Of (f : Fin 32 → EReal) (off : Nat) (hoff : off + 8 ≤ 32) : EReal :=
  ∑ j : Fin 8, f ⟨off + j.val, by have := j.isLt; omega⟩

/-- The 32 values summed in four runs of eight, accumulated left to right from the zero constant. -/
def runSumOf (f : Fin 32 → EReal) : EReal :=
  (((zeroLit + run8Of f 0 (by omega)) + run8Of f 8 (by omega)) + run8Of f 16 (by omega)) + run8Of f 24 (by omega)

/-- The two scaled sums side by side: column k of 256. -/
def pairOf (f1 f2 : Fin 32 → Fin 128 → EReal) (k : Fin 256) : EReal :=
  if hk : k.val < 128 then runSumOf (fun n => f1 n ⟨k.val, hk⟩) * lit64th
  else runSumOf (fun n => f2 n ⟨k.val - 128, by have := k.isLt; omega⟩) * lit64th

/-- A row's 256 columns before bias and clipping. -/
def tileRow (s : Fin 128 → EReal) (f1 f2 : Fin 32 → Fin 128 → EReal) (wself : WArr) (wst : Fin 256 → Fin 128 → EReal)
    (d : Fin 256) : EReal :=
  if hd : d.val < 128 then ∑ k : Fin 128, s k * wself (ix2 k ⟨d.val, hd⟩)
  else ∑ k : Fin 256, pairOf f1 f2 k * wst k ⟨d.val - 128, by have := d.isLt; omega⟩

/-- The whole-array reading: node (b, h)'s row. -/
theorem fusedPreact_eq_tileRow (xs : SelfArr) (x1 x2 : NeighArr) (ws w1 w2 : WArr) (b : Fin 1024) (h : Fin 10) (d : Fin 256) :
    fusedPreact xs x1 x2 ws w1 w2 b h d
      = tileRow (fun k => xs (ix3 b h k)) (fun n k => x1 (ix4 b h n k)) (fun n k => x2 (ix4 b h n k)) ws (stacked w1 w2) d := rfl

end Cert.NeighMean

end
-- ==== Proof.TileValue.lean ====
/-
  The block a grid point writes back, read at one entry (row p of 512, column d of 256) over the extended
  reals: the tiled row of module Tile over the blocks' row p — own features x0[p, ·], neighbour features
  x1[p, ·, ·] and x2[p, ·, ·], the own weights x4 and the stacked weights x3 — plus the bias row's entry,
  clipped below at zero.  A lane sum over eight rows is the sum of the eight entries; a product into the
  zero block is the sum over the contracted position; the two joins along the columns read their left piece
  below column 128 and their right piece from 128 on; the changes of float format are the identity.
-/
import proofs.«165272_j50294067036664_2_alg».proof.Proof.BlockValue
import proofs.«165272_j50294067036664_2_alg».proof.Proof.Tile
import Idealize.ShloMosaic.PureOps.Ideal.Laws
import Idealize.ShloMosaic.Lib.ValueLayout

set_option maxRecDepth 16384

noncomputable section

open scoped BigOperators
open Idealize.ShloMosaic Idealize.ShloMosaic.TcCoe Idealize.SL.Sem Idealize.ShloMosaic.ValueIdx

namespace Cert.KernelIdeal.Tiled

open Cert.KernelIdeal Cert.KernelIdeal.Gen Cert.NeighMean

/-! ## The sum over eight neighbour rows -/

/-- The lane reduction of the body: a [512, 8, 128] vector summed over its middle axis. -/
def rsum (v : Vec Ideal S512x8x128 .f32) : FVec Ideal S512x128 .f32 :=
  multiReduction .add [1] S512x128 (shapeCast S512x8x128 v shapeCasts_S512x8x128_S512x8x128) 0x00000000#32
    reduces_S512x8x128_S512x128 (.inl rfl) rfl

theorem rsum_apply (v : Vec Ideal S512x8x128 .f32) (p : Fin 512) (k : Fin 128) :
    rsum v (ix2 p k) = ∑ j : Fin 8, v (ix3 p j k) := by
  unfold rsum
  rw [shapeCast_self]
  refine (Ideal.multiReduction_add_single v 0x00000000#32 reduces_S512x8x128_S512x128 (.inl rfl) rfl (ix2 p k)).trans ?_
  refine Finset.sum_congr rfl fun j _ => congrArg v ?_
  funext a
  match a with
  | ⟨0, _⟩ => rfl
  | ⟨1, _⟩ => rfl
  | ⟨2, _⟩ => rfl

/-- Eight rows of a block summed are a run of eight of the block's row accessor. -/
theorem rsum_rows8 (x : Vec Ideal S512x32x128 .f32) (off : Nat) (hoff : off + 8 ≤ 32) (p : Fin 512) (k : Fin 128) :
    rsum (rows8 x off hoff) (ix2 p k) = run8Of (fun n => x (ix3 p n k)) off hoff := by
  rw [rsum_apply]
  rfl

/-! ## The accumulated sum over the 32 neighbours -/

theorem pay3_eq (v6 v13 v20 v27 : Vec Ideal S512x8x128 .f32) :
    k0_pay3 (F := Ideal) v6 v13 v20 v27
      = addf (addf (addf (addf (broadcast S512x128 (Scalar.ofBits .f32 0x00000000#32)) (rsum v6)) (rsum v13)) (rsum v20)) (rsum v27) := rfl

theorem pay3_rows (x : Vec Ideal S512x32x128 .f32) (p : Fin 512) (k : Fin 128) :
    k0_pay3 (F := Ideal) (rows8 x 0 (by omega)) (rows8 x 8 (by omega)) (rows8 x 16 (by omega)) (rows8 x 24 (by omega)) (ix2 p k)
      = runSumOf (fun n => x (ix3 p n k)) := by
  rw [pay3_eq]
  simp only [addf_apply, broadcast_apply, rsum_rows8]
  rfl

/-! ## The two scaled sums side by side -/

theorem pay5_eq (v30 v31 : FVec Ideal S512x128 .f32) (v35 v42 v49 v56 : Vec Ideal S512x8x128 .f32) :
    k0_pay5 (F := Ideal) v30 v31 v35 v42 v49 v56
      = truncf .bf16 (concatenate S512x256 1
          [⟨S512x128, mulf v30 (broadcast S512x128 (Scalar.ofBits .f32 0x3C800000#32))⟩,
           ⟨S512x128, mulf (addf (addf (addf (addf v31 (rsum v35)) (rsum v42)) (rsum v49)) (rsum v56))
              (broadcast S512x128 (Scalar.ofBits .f32 0x3C800000#32))⟩] concatenates_S512x128_S512x128_S512x256_d1) bitsLt_bf16_f32 := rfl

theorem pair_apply (x1 x2 : Vec Ideal S512x32x128 .f32) (p : Fin 512) (k : Fin 256) :
    k0_pay5 (F := Ideal)
        (k0_pay3 (rows8 x1 0 (by omega)) (rows8 x1 8 (by omega)) (rows8 x1 16 (by omega)) (rows8 x1 24 (by omega)))
        k0_pay4 (rows8 x2 0 (by omega)) (rows8 x2 8 (by omega)) (rows8 x2 16 (by omega)) (rows8 x2 24 (by omega)) (ix2 p k)
      = pairOf (fun n k' => x1 (ix3 p n k')) (fun n k' => x2 (ix3 p n k')) k := by
  rw [pay5_eq, truncf_apply]
  unfold pairOf
  by_cases hk : k.val < 128
  · rw [dif_pos hk]
    refine (concatenate_pair_apply_left (t := S512x256) (s₁ := S512x128) (s₂ := S512x128) (1 : Fin 2) _ _ concatenates_S512x128_S512x128_S512x256_d1 (ix2 p k) rfl (ix2 p ⟨k.val, hk⟩)
      (fun b => by match b with | ⟨0, _⟩ => rfl | ⟨1, _⟩ => rfl)).trans ?_
    rw [mulf_apply, broadcast_apply, pay3_rows]
    rfl
  · rw [dif_neg hk]
    have hk' : k.val - 128 < 128 := by have := k.isLt; omega
    refine (concatenate_pair_apply_right (t := S512x256) (s₁ := S512x128) (s₂ := S512x128) (1 : Fin 2) _ _ concatenates_S512x128_S512x128_S512x256_d1 (ix2 p k) rfl rfl (ix2 p ⟨k.val - 128, hk'⟩)
      (fun b hb => by match b with | ⟨0, _⟩ => rfl | ⟨1, _⟩ => exact absurd rfl hb)
      (by show k.val - 128 + 128 = k.val; omega)).trans ?_
    rw [mulf_apply, broadcast_apply]
    simp only [addf_apply, rsum_rows8]
    rfl

/-! ## The two products -/

theorem mm256_lhs0 (i : S512x128.Idx) (q : dot_S512x256_S256x128_S512x128_1_0_0_1_n_n.contr.Idx) : (dot_S512x256_S256x128_S512x128_1_0_0_1_n_n.lhsIdx i q 0).val = (i 0).val := by
  unfold DotDims.lhsIdx
  rw [dif_neg (show ¬(0 : Fin S512x256.rank) ∈ dot_S512x256_S256x128_S512x128_1_0_0_1_n_n.lhsBatch by decide), dif_pos (show (0 : Fin S512x256.rank) ∈ dot_S512x256_S256x128_S512x128_1_0_0_1_n_n.lhsNonContracting by decide)]
  rfl
theorem mm256_lhs1 (i : S512x128.Idx) (q : dot_S512x256_S256x128_S512x128_1_0_0_1_n_n.contr.Idx) : (dot_S512x256_S256x128_S512x128_1_0_0_1_n_n.lhsIdx i q 1).val = (q ⟨0, by decide⟩).val :=
  dot_S512x256_S256x128_S512x128_1_0_0_1_n_n.lhsIdx_val_of_single rfl i q
theorem mm256_rhs0 (i : S512x128.Idx) (q : dot_S512x256_S256x128_S512x128_1_0_0_1_n_n.contr.Idx) : (dot_S512x256_S256x128_S512x128_1_0_0_1_n_n.rhsIdx i q 0).val = (q ⟨0, by decide⟩).val :=
  dot_S512x256_S256x128_S512x128_1_0_0_1_n_n.rhsIdx_val_of_single rfl i q
theorem mm256_rhs1 (i : S512x128.Idx) (q : dot_S512x256_S256x128_S512x128_1_0_0_1_n_n.contr.Idx) : (dot_S512x256_S256x128_S512x128_1_0_0_1_n_n.rhsIdx i q 1).val = (i 1).val := by
  unfold DotDims.rhsIdx
  rw [dif_neg (show ¬(1 : Fin S256x128.rank) ∈ dot_S512x256_S256x128_S512x128_1_0_0_1_n_n.rhsBatch by decide), dif_pos (show (1 : Fin S256x128.rank) ∈ dot_S512x256_S256x128_S512x128_1_0_0_1_n_n.rhsNonContracting by decide)]
  rfl

/-- The product into the zero block, read at (p, d): the sum over the 256 contracted positions. -/
theorem mm256_apply {φ₁ φ₂ : FTy} (l : FVec Ideal S512x256 φ₁) (r : FVec Ideal S256x128 φ₂) (p : Fin 512) (d : Fin 128) :
    matmul dot_S512x256_S256x128_S512x128_1_0_0_1_n_n none l r (constant S512x128 .f32 0x00000000#32) (ix2 p d) = ∑ k : Fin 256, l (ix2 p k) * r (ix2 k d) := by
  simp only [matmul]
  rw [Ideal.matmul_constant_zero_apply, ← Equiv.sum_comp (contrEquiv1 dot_S512x256_S256x128_S512x128_1_0_0_1_n_n 256 rfl rfl).symm]
  refine Finset.sum_congr rfl fun k _ => ?_
  have hk := contrEquiv1_symm_val dot_S512x256_S256x128_S512x128_1_0_0_1_n_n 256 rfl rfl k
  have el : dot_S512x256_S256x128_S512x128_1_0_0_1_n_n.lhsIdx (ix2 p d) ((contrEquiv1 dot_S512x256_S256x128_S512x128_1_0_0_1_n_n 256 rfl rfl).symm k) = ix2 p k := funext fun a => Fin.ext (by
    match a with
    | ⟨0, _⟩ => exact mm256_lhs0 _ _
    | ⟨1, _⟩ => exact (mm256_lhs1 _ _).trans hk)
  have er : dot_S512x256_S256x128_S512x128_1_0_0_1_n_n.rhsIdx (ix2 p d) ((contrEquiv1 dot_S512x256_S256x128_S512x128_1_0_0_1_n_n 256 rfl rfl).symm k) = ix2 k d := funext fun a => Fin.ext (by
    match a with
    | ⟨0, _⟩ => exact (mm256_rhs0 _ _).trans hk
    | ⟨1, _⟩ => exact mm256_rhs1 _ _)
  rw [el, er]

theorem mm128_lhs0 (i : S512x128.Idx) (q : dot_S512x128_S128x128_S512x128_1_0_0_1_n_n.contr.Idx) : (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem mm128_lhs1 (i : S512x128.Idx) (q : dot_S512x128_S128x128_S512x128_1_0_0_1_n_n.contr.Idx) : (dot_S512x128_S128x128_S512x128_1_0_0_1_n_n.lhsIdx i q 1).val = (q ⟨0, by decide⟩).val :=
  dot_S512x128_S128x128_S512x128_1_0_0_1_n_n.lhsIdx_val_of_single rfl i q
theorem mm128_rhs0 (i : S512x128.Idx) (q : dot_S512x128_S128x128_S512x128_1_0_0_1_n_n.contr.Idx) : (dot_S512x128_S128x128_S512x128_1_0_0_1_n_n.rhsIdx i q 0).val = (q ⟨0, by decide⟩).val :=
  dot_S512x128_S128x128_S512x128_1_0_0_1_n_n.rhsIdx_val_of_single rfl i q
theorem mm128_rhs1 (i : S512x128.Idx) (q : dot_S512x128_S128x128_S512x128_1_0_0_1_n_n.contr.Idx) : (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- The product into the zero block, read at (p, d): the sum over the 128 contracted positions. -/
theorem mm128_apply {φ₁ φ₂ : FTy} (l : FVec Ideal S512x128 φ₁) (r : FVec Ideal S128x128 φ₂) (p : Fin 512) (d : Fin 128) :
    matmul dot_S512x128_S128x128_S512x128_1_0_0_1_n_n none l r (constant S512x128 .f32 0x00000000#32) (ix2 p d) = ∑ k : Fin 128, l (ix2 p k) * r (ix2 k d) := by
  simp only [matmul]
  rw [Ideal.matmul_constant_zero_apply, ← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  have el : dot_S512x128_S128x128_S512x128_1_0_0_1_n_n.lhsIdx (ix2 p d) ((contrEquiv1 dot_S512x128_S128x128_S512x128_1_0_0_1_n_n 128 rfl rfl).symm k) = ix2 p k := funext fun a => Fin.ext (by
    match a with
    | ⟨0, _⟩ => exact mm128_lhs0 _ _
    | ⟨1, _⟩ => exact (mm128_lhs1 _ _).trans hk)
  have er : dot_S512x128_S128x128_S512x128_1_0_0_1_n_n.rhsIdx (ix2 p d) ((contrEquiv1 dot_S512x128_S128x128_S512x128_1_0_0_1_n_n 128 rfl rfl).symm k) = ix2 k d := funext fun a => Fin.ext (by
    match a with
    | ⟨0, _⟩ => exact (mm128_rhs0 _ _).trans hk
    | ⟨1, _⟩ => exact mm128_rhs1 _ _)
  rw [el, er]

/-! ## The block's entry -/

theorem pay1_eq (v1 : FVec Ideal S512x128 .f32) (v65 : FVec Ideal S512x256 .bf16) (v68 : FVec Ideal S256x128 .bf16)
    (v70 : Vec Ideal S128x128 .f32) (v75 : Vec Ideal S1x256 .f32) :
    k0_pay1 (F := Ideal) v1 v65 v68 v70 v75
      = maximumf (addf (concatenate S512x256 1
            [⟨S512x128, matmul dot_S512x128_S128x128_S512x128_1_0_0_1_n_n none (truncf .bf16 v1 bitsLt_bf16_f32) (truncf .bf16 v70 bitsLt_bf16_f32) (constant S512x128 .f32 0x00000000#32)⟩,
             ⟨S512x128, matmul dot_S512x256_S256x128_S512x128_1_0_0_1_n_n none v65 v68 (constant S512x128 .f32 0x00000000#32)⟩] concatenates_S512x128_S512x128_S512x256_d1)
          (broadcastTo S512x256 (shapeCast S1x256 v75 shapeCasts_S1x256_S1x256) broadcasts_S1x256_S512x256))
        (broadcast S512x256 (Scalar.ofBits .f32 0x00000000#32)) := rfl

/-- The bias row broadcast over the 512 rows, read at (p, d): the row's entry d. -/
theorem bias_apply (v75 : Vec Ideal S1x256 .f32) (p : Fin 512) (d : Fin 256) :
    broadcastTo S512x256 (shapeCast S1x256 v75 shapeCasts_S1x256_S1x256) broadcasts_S1x256_S512x256 (ix2 p d) = v75 (ix2 0 d) := by
  rw [shapeCast_self]
  exact broadcastTo_apply v75 broadcasts_S1x256_S512x256 (ix2 p d) (ix2 0 d) (fun a => by
    match a with
    | ⟨0, _⟩ => show 0 = if (1 : Nat) = 1 then 0 else p.val; rw [if_pos rfl]
    | ⟨1, _⟩ => show d.val = if (256 : Nat) = 1 then 0 else d.val; rw [if_neg (by decide)])

/-- A cast to the same shape changes nothing: the own-feature block and the stacked weights pass through. -/
theorem pay2_eq (x0 : Vec Ideal S512x128 .f32) : k0_pay2 (F := Ideal) x0 = x0 := shapeCast_self _ _
theorem pay6_eq (x3 : Vec Ideal S256x128 .f32) : k0_pay6 (F := Ideal) x3 = x3 := shapeCast_self _ _

/-- THE BLOCK'S ENTRY (p, d). -/
theorem blockOut_apply (x0 : Vec Ideal S512x128 .f32) (x1 x2 : Vec Ideal S512x32x128 .f32) (x3 : Vec Ideal S256x128 .f32)
    (x4 : Vec Ideal S128x128 .f32) (x5 : Vec Ideal S1x256 .f32) (p : Fin 512) (d : Fin 256) :
    blockOut (F := Ideal) x0 x1 x2 x3 x4 x5 (ix2 p d)
      = max (tileRow (fun k => x0 (ix2 p k)) (fun n k => x1 (ix3 p n k)) (fun n k => x2 (ix3 p n k)) x4 (fun k d' => x3 (ix2 k d')) d
          + x5 (ix2 0 d)) zeroLit := by
  unfold blockOut
  rw [pay1_eq, maximumf_apply, addf_apply, bias_apply, broadcast_apply]
  refine congrArg (fun z => max (z + x5 (ix2 0 d)) zeroLit) ?_
  unfold tileRow
  by_cases hd : d.val < 128
  · rw [dif_pos hd]
    refine (concatenate_pair_apply_left (t := S512x256) (s₁ := S512x128) (s₂ := S512x128) (1 : Fin 2) _ _ concatenates_S512x128_S512x128_S512x256_d1 (ix2 p d) rfl (ix2 p ⟨d.val, hd⟩)
      (fun b => by match b with | ⟨0, _⟩ => rfl | ⟨1, _⟩ => rfl)).trans ?_
    rw [mm128_apply]
    refine Finset.sum_congr rfl fun k _ => ?_
    rw [truncf_apply, truncf_apply, pay2_eq]
  · rw [dif_neg hd]
    have hd' : d.val - 128 < 128 := by have := d.isLt; omega
    refine (concatenate_pair_apply_right (t := S512x256) (s₁ := S512x128) (s₂ := S512x128) (1 : Fin 2) _ _ concatenates_S512x128_S512x128_S512x256_d1 (ix2 p d) rfl rfl (ix2 p ⟨d.val - 128, hd'⟩)
      (fun b hb => by match b with | ⟨0, _⟩ => rfl | ⟨1, _⟩ => exact absurd rfl hb)
      (by show d.val - 128 + 128 = d.val; omega)).trans ?_
    rw [mm256_apply]
    refine Finset.sum_congr rfl fun k _ => ?_
    rw [pair_apply, pay6_eq]

end Cert.KernelIdeal.Tiled

end
-- ==== Proof.HostSide.lean ====
/-
  The host operations around the tiled program's one launch, read at an index (at the extended reals).

  Before the launch the program only re-lays its arguments out: three reshapes that merge the node axes
  (batch b of 1024, slot h of 10) into one row axis of 10240, a reshape that puts the bias on a unit axis, and a
  concatenation that stacks the two neighbour weight matrices; after it one reshape splits the row axis back.
  A reshape keeps the row-major position of every element, so row r of 10240 is node (r / 10, r % 10)
  (r = 10 · (r / 10) + r % 10), and node (b, h) is row 10 · b + h.  A concatenation along axis 0 reads its first
  piece below the first extent (128) and its second piece from there on, the extent less.
-/
import proofs.«165272_j50294067036664_2_alg».proof.Proof.Gen.KernelIdeal.Frame
import proofs.«165272_j50294067036664_2_alg».proof.Proof.Spec
import Idealize.ShloMosaic.Lib.Pipeline.Value
import Idealize.ShloMosaic.Lib.ValueIdx
import Idealize.ShloMosaic.Lib.StableHlo.Run
import Idealize.ShloMosaic.Lib.Tactic

set_option maxRecDepth 16384

noncomputable section

namespace Cert.KernelIdeal.Tiled

open Cert.KernelIdeal Cert.KernelIdeal.Gen Cert.NeighMean
open Idealize.ShloMosaic Idealize.ShloMosaic.TcCoe Idealize.ShloMosaic.Tactic
open Idealize.SL.Sem
open Idealize.ShloMosaic.ValueIdx

variable (m : (ℓ : Loc nD τ sig) → Buf (Elt Ideal) ℓ) (c : Dev nD)

/-! ## Row-major positions: merging and splitting the node axes keeps every element's position -/

/-- Node (r / 10, r % 10), column k of [1024, 10, 128] sits where row r, column k of [10240, 128] does. -/
theorem pos_rows_2 (r : Fin 10240) (k : Fin 128) :
    (S1024x10x128.rowMajor (ix3 (⟨r.val / 10, by have := r.isLt; omega⟩ : Fin 1024) (⟨r.val % 10, by omega⟩ : Fin 10) k)).val
      = (S10240x128.rowMajor (ix2 r k)).val := by
  rw [Shape.rowMajor_val_three, Shape.rowMajor_val_two]
  show (r.val / 10 * 10 + r.val % 10) * 128 + k.val = r.val * 128 + k.val
  have := Nat.div_add_mod r.val 10
  omega

/-- The same with the neighbour axis between the row and the column. -/
theorem pos_rows_3 (r : Fin 10240) (n : Fin 32) (k : Fin 128) :
    (S1024x10x32x128.rowMajor (ix4 (⟨r.val / 10, by have := r.isLt; omega⟩ : Fin 1024) (⟨r.val % 10, by omega⟩ : Fin 10) n k)).val
      = (S10240x32x128.rowMajor (ix3 r n k)).val := by
  rw [Shape.rowMajor_val_four, Shape.rowMajor_val_three]
  show ((r.val / 10 * 10 + r.val % 10) * 32 + n.val) * 128 + k.val = (r.val * 32 + n.val) * 128 + k.val
  have := Nat.div_add_mod r.val 10
  omega

/-- Row 10 · b + h, column d of [10240, 256] sits where node (b, h), column d of [1024, 10, 256] does. -/
theorem pos_node (b : Fin 1024) (h : Fin 10) (d : Fin 256) :
    (S10240x256.rowMajor (ix2 (⟨10 * b.val + h.val, by have := b.isLt; have := h.isLt; omega⟩ : Fin 10240) d)).val
      = (S1024x10x256.rowMajor (ix3 b h d)).val := by
  rw [Shape.rowMajor_val_two, Shape.rowMajor_val_three]
  show (10 * b.val + h.val) * 256 + d.val = (b.val * 10 + h.val) * 256 + d.val
  omega

/-- Entry d of [256] sits where row 0, column d of [1, 256] does. -/
theorem pos_bias (d : Fin 256) : (S256.rowMajor (ix1 d)).val = (S1x256.rowMajor (ix2 (0 : Fin 1) d)).val := by
  rw [Shape.rowMajor_val_one, Shape.rowMajor_val_two]
  show d.val = 0 * 256 + d.val
  omega

/-! ## Before the launch -/

/-- The own features by rows: row r of 10240 is node (r / 10, r % 10). -/
theorem V_v0_apply (r : Fin 10240) (k : Fin 128) :
    (V m c main_v0 : S10240x128.Idx → EReal) (ix2 r k)
      = (m ((c : Thread nD τ).loc main_arg0) : S1024x10x128.Idx → EReal)
          (ix3 ⟨r.val / 10, by have := r.isLt; omega⟩ ⟨r.val % 10, by omega⟩ k) := by
  have e : (V m c main_v0 : S10240x128.Idx → EReal)
      = shapeCast S10240x128 (m ((c : Thread nD τ).loc main_arg0) : S1024x10x128.Idx → EReal)
          Gen.shapeCasts_S1024x10x128_S10240x128 := by
    show StableHlo.after hostOps0 (fun b => m (c, b)) (Proc.devRef .tc main_v0) = _
    after_results
    rfl
  rw [e]
  exact shapeCast_apply _ _ _ _ (pos_rows_2 r k)

/-- Relation 0's neighbour features by rows. -/
theorem V_v1_apply (r : Fin 10240) (n : Fin 32) (k : Fin 128) :
    (V m c main_v1 : S10240x32x128.Idx → EReal) (ix3 r n k)
      = (m ((c : Thread nD τ).loc main_arg1) : S1024x10x32x128.Idx → EReal)
          (ix4 ⟨r.val / 10, by have := r.isLt; omega⟩ ⟨r.val % 10, by omega⟩ n k) := by
  have e : (V m c main_v1 : S10240x32x128.Idx → EReal)
      = shapeCast S10240x32x128 (m ((c : Thread nD τ).loc main_arg1) : S1024x10x32x128.Idx → EReal)
          Gen.shapeCasts_S1024x10x32x128_S10240x32x128 := by
    show StableHlo.after hostOps0 (fun b => m (c, b)) (Proc.devRef .tc main_v1) = _
    after_results
    rfl
  rw [e]
  exact shapeCast_apply _ _ _ _ (pos_rows_3 r n k)

/-- Relation 1's neighbour features by rows. -/
theorem V_v2_apply (r : Fin 10240) (n : Fin 32) (k : Fin 128) :
    (V m c main_v2 : S10240x32x128.Idx → EReal) (ix3 r n k)
      = (m ((c : Thread nD τ).loc main_arg2) : S1024x10x32x128.Idx → EReal)
          (ix4 ⟨r.val / 10, by have := r.isLt; omega⟩ ⟨r.val % 10, by omega⟩ n k) := by
  have e : (V m c main_v2 : S10240x32x128.Idx → EReal)
      = shapeCast S10240x32x128 (m ((c : Thread nD τ).loc main_arg2) : S1024x10x32x128.Idx → EReal)
          Gen.shapeCasts_S1024x10x32x128_S10240x32x128 := by
    show StableHlo.after hostOps0 (fun b => m (c, b)) (Proc.devRef .tc main_v2) = _
    after_results
    rfl
  rw [e]
  exact shapeCast_apply _ _ _ _ (pos_rows_3 r n k)

/-- The bias on a unit row axis. -/
theorem V_v3_apply (d : Fin 256) :
    (V m c main_v3 : S1x256.Idx → EReal) (ix2 (0 : Fin 1) d)
      = (m ((c : Thread nD τ).loc main_arg6) : S256.Idx → EReal) (ix1 d) := by
  have e : (V m c main_v3 : S1x256.Idx → EReal)
      = shapeCast S1x256 (m ((c : Thread nD τ).loc main_arg6) : S256.Idx → EReal) Gen.shapeCasts_S256_S1x256 := by
    show StableHlo.after hostOps0 (fun b => m (c, b)) (Proc.devRef .tc main_v3) = _
    after_results
    rfl
  rw [e]
  exact shapeCast_apply _ _ _ _ (pos_bias d)

/-- The two neighbour weight matrices stacked: rows below 128 are the first's, rows from 128 on the second's. -/
theorem V_v4_apply (k : Fin 256) (d : Fin 128) :
    (V m c main_v4 : S256x128.Idx → EReal) (ix2 k d)
      = stacked (m ((c : Thread nD τ).loc main_arg4)) (m ((c : Thread nD τ).loc main_arg5)) k d := by
  have e : (V m c main_v4 : S256x128.Idx → EReal)
      = concatenate S256x128 0 [⟨S128x128, (m ((c : Thread nD τ).loc main_arg4) : S128x128.Idx → EReal)⟩,
          ⟨S128x128, (m ((c : Thread nD τ).loc main_arg5) : S128x128.Idx → EReal)⟩]
          Gen.concatenates_S128x128_S128x128_S256x128_d0 := by
    show StableHlo.after hostOps0 (fun b => m (c, b)) (Proc.devRef .tc main_v4) = _
    after_results
  rw [e]
  unfold stacked
  by_cases hk : k.val < 128
  · rw [dif_pos hk]
    exact concatenate_pair_apply_left (t := S256x128) (s₁ := S128x128) (s₂ := S128x128) (0 : Fin S256x128.rank) _ _ _ _ rfl (ix2 (⟨k.val, hk⟩ : Fin 128) d) (fun b => by
      match b with
      | ⟨0, _⟩ => rfl
      | ⟨1, _⟩ => rfl)
  · rw [dif_neg hk]
    exact concatenate_pair_apply_right (t := S256x128) (s₁ := S128x128) (s₂ := S128x128) (0 : Fin S256x128.rank) _ _ _ _ rfl rfl
      (ix2 (⟨k.val - 128, by have := k.isLt; omega⟩ : Fin 128) d) (fun b hb => by
        match b, hb with
        | ⟨0, _⟩, hb => exact absurd rfl hb
        | ⟨1, _⟩, _ => rfl) (by show k.val - 128 + 128 = k.val; omega)

/-! ## After the launch -/

/-- The result by nodes: node (b, h) is row 10 · b + h of the launch's output array as the pipeline leaves it. -/
theorem tail_apply (b : Fin 1024) (h : Fin 10) (d : Fin 256) :
    (Pipeline.afterTail₀ cfgs (dats m) 0 (V0 m) [hostOps1] c main_v6 : S1024x10x256.Idx → EReal) (ix3 b h d)
      = ((dats m 0 c).arrAt 6 cfg0.N : S10240x256.Idx → EReal)
          (ix2 ⟨10 * b.val + h.val, by have := b.isLt; have := h.isLt; omega⟩ d) := by
  have e : (Pipeline.afterTail₀ cfgs (dats m) 0 (V0 m) [hostOps1] c main_v6 : S1024x10x256.Idx → EReal)
      = shapeCast S1024x10x256 ((dats m 0 c).arrAt 6 cfg0.N : S10240x256.Idx → EReal)
          Gen.shapeCasts_S10240x256_S1024x10x256 := by
    unfold Pipeline.afterTail₀
    show StableHlo.after hostOps1 _ (Proc.devRef .tc main_v6) = _
    after_results
    have hw := Pipeline.withArrays_arr spec0 launch0.win.arr_inj c (V0 m c) (fun w => (dats m 0 c).arrAt w cfg0.N) 6
    rw [← hw]
    rfl
  rw [e]
  exact shapeCast_apply _ _ _ _ (pos_node b h d)

end Cert.KernelIdeal.Tiled

end
-- ==== Proof.OutArray.lean ====
/-
  From blocks to the array.  Grid point t (of 20) stages rows 512·t … 512·t + 511 of the flattened inputs
  (row r of 10240 is node (r / 10, r % 10)), the whole weight matrices and the bias row, and writes back rows
  512·t … 512·t + 511 of the flattened output [10240, 256].  Entry (p, d) of the block written at point t is
  therefore the layer's tiled row of node ((512·t + p) / 10, (512·t + p) % 10) at column d; the twenty blocks
  tile the output, so after the run the output array holds that function at every index.
-/
import proofs.«165272_j50294067036664_2_alg».proof.Proof.TileValue
import proofs.«165272_j50294067036664_2_alg».proof.Proof.HostSide

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Tiled

open Cert.KernelIdeal Cert.KernelIdeal.Gen Cert.NeighMean

/-- Row r of the flattened output at column d: node (r / 10, r % 10)'s tiled row, bias added, clipped at zero. -/
def flatEntry (a0 : SelfArr) (a1 a2 : NeighArr) (a3 a4 a5 : WArr) (a6 : BiasArr) (r : Fin 10240) (d : Fin 256) : EReal :=
  max (fusedPreact a0 a1 a2 a3 a4 a5 ⟨r.val / 10, by have := r.isLt; omega⟩ ⟨r.val % 10, by omega⟩ d + a6 (ix1 d)) zeroLit

/-- The flattened output [10240, 256] as one function of the argument arrays. -/
def flatLayer (a0 : SelfArr) (a1 a2 : NeighArr) (a3 a4 a5 : WArr) (a6 : BiasArr) : S10240x256.Idx → EReal :=
  fun i => flatEntry a0 a1 a2 a3 a4 a5 a6 (i 0) (i 1)

/-- One entry of a written block from the entries of the six staged blocks: if row p of the blocks is node (b, h)'s
    row of the arrays, the stacked block is the stacked weights, the own weights and the bias row are the arrays',
    then entry (p, d) is node (b, h)'s tiled row at d, bias added, clipped. -/
theorem entry_of_blocks (a0 : SelfArr) (a1 a2 : NeighArr) (a3 a4 a5 : WArr) (a6 : BiasArr)
    (x0 : Vec Ideal S512x128 .f32) (x1 x2 : Vec Ideal S512x32x128 .f32) (x3 : Vec Ideal S256x128 .f32)
    (x4 : Vec Ideal S128x128 .f32) (x5 : Vec Ideal S1x256 .f32) (p : Fin 512) (d : Fin 256) (b : Fin 1024) (h : Fin 10)
    (h0 : ∀ k : Fin 128, x0 (ix2 p k) = a0 (ix3 b h k))
    (h1 : ∀ (n : Fin 32) (k : Fin 128), x1 (ix3 p n k) = a1 (ix4 b h n k))
    (h2 : ∀ (n : Fin 32) (k : Fin 128), x2 (ix3 p n k) = a2 (ix4 b h n k))
    (h3 : ∀ (k : Fin 256) (d' : Fin 128), x3 (ix2 k d') = stacked a4 a5 k d')
    (h4 : x4 = a3) (h5 : x5 (ix2 0 d) = a6 (ix1 d)) :
    blockOut (F := Ideal) x0 x1 x2 x3 x4 x5 (ix2 p d) = max (fusedPreact a0 a1 a2 a3 a4 a5 b h d + a6 (ix1 d)) zeroLit := by
  have e0 : (fun k => x0 (ix2 p k)) = fun k => a0 (ix3 b h k) := funext h0
  have e1 : (fun n k => x1 (ix3 p n k)) = fun n k => a1 (ix4 b h n k) := funext fun n => funext fun k => h1 n k
  have e2 : (fun n k => x2 (ix3 p n k)) = fun n k => a2 (ix4 b h n k) := funext fun n => funext fun k => h2 n k
  have e3 : (fun k d' => x3 (ix2 k d')) = stacked a4 a5 := funext fun k => funext fun d' => h3 k d'
  rw [blockOut_apply, fusedPreact_eq_tileRow, h5, h4, e0, e1, e2, e3]

variable (m : (ℓ : Loc nD τ sig) → Buf (Elt Ideal) ℓ) (ρ : Dev nD → PrngReg)

/-- The printed index maps over the twenty points: the row-tiled windows are at block t, everything else at block 0. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 20 := lt_of_lt_of_eq t.isLt N_0

/-- Row p of point t's blocks is row 512·t + p of the flattened arrays. -/
def rowOf (t : Fin cfg0.N) (p : Fin 512) : Fin 10240 := ⟨512 * t.val + p.val, by have := t_lt t; have := p.isLt; omega⟩

/-! ## The staged blocks, read at an entry -/

theorem iblk0_apply (c : Dev nD) (t : Fin cfg0.N) (p : Fin 512) (k : Fin 128) :
    iblk m c 0 t (ix2 p k) = (m ((c : Thread nD τ).loc main_arg0)) (ix3 ⟨(rowOf t p).val / 10, by have := (rowOf t p).isLt; omega⟩ ⟨(rowOf t p).val % 10, by omega⟩ k) := by
  obtain ⟨e0, e1, -⟩ := idx_facts t
  unfold iblk
  rw [View.read_apply]
  refine Eq.trans (congrArg (V m c main_v0) (?_ : _ = ix2 (rowOf t p) k)) (V_v0_apply m c (rowOf t p) k)
  funext a; apply Fin.ext
  match a with
  | ⟨0, _⟩ => show win0_0.index t (0 : Fin 2) * 512 + 1 * p.val = 512 * t.val + p.val; rw [e0]; omega
  | ⟨1, _⟩ => show win0_0.index t (1 : Fin 2) * 128 + 1 * k.val = k.val; rw [e1]; omega

theorem iblk1_apply (c : Dev nD) (t : Fin cfg0.N) (p : Fin 512) (n : Fin 32) (k : Fin 128) :
    iblk m c 1 t (ix3 p n k) = (m ((c : Thread nD τ).loc main_arg1)) (ix4 ⟨(rowOf t p).val / 10, by have := (rowOf t p).isLt; omega⟩ ⟨(rowOf t p).val % 10, by omega⟩ n k) := by
  obtain ⟨-, -, e0, e1, e2, -⟩ := idx_facts t
  unfold iblk
  rw [View.read_apply]
  refine Eq.trans (congrArg (V m c main_v1) (?_ : _ = ix3 (rowOf t p) n k)) (V_v1_apply m c (rowOf t p) n k)
  funext a; apply Fin.ext
  match a with
  | ⟨0, _⟩ => show win0_1.index t (0 : Fin 3) * 512 + 1 * p.val = 512 * t.val + p.val; rw [e0]; omega
  | ⟨1, _⟩ => show win0_1.index t (1 : Fin 3) * 32 + 1 * n.val = n.val; rw [e1]; omega
  | ⟨2, _⟩ => show win0_1.index t (2 : Fin 3) * 128 + 1 * k.val = k.val; rw [e2]; omega

theorem iblk2_apply (c : Dev nD) (t : Fin cfg0.N) (p : Fin 512) (n : Fin 32) (k : Fin 128) :
    iblk m c 2 t (ix3 p n k) = (m ((c : Thread nD τ).loc main_arg2)) (ix4 ⟨(rowOf t p).val / 10, by have := (rowOf t p).isLt; omega⟩ ⟨(rowOf t p).val % 10, by omega⟩ n k) := by
  obtain ⟨-, -, -, -, -, e0, e1, e2, -⟩ := idx_facts t
  unfold iblk
  rw [View.read_apply]
  refine Eq.trans (congrArg (V m c main_v2) (?_ : _ = ix3 (rowOf t p) n k)) (V_v2_apply m c (rowOf t p) n k)
  funext a; apply Fin.ext
  match a with
  | ⟨0, _⟩ => show win0_2.index t (0 : Fin 3) * 512 + 1 * p.val = 512 * t.val + p.val; rw [e0]; omega
  | ⟨1, _⟩ => show win0_2.index t (1 : Fin 3) * 32 + 1 * n.val = n.val; rw [e1]; omega
  | ⟨2, _⟩ => show win0_2.index t (2 : Fin 3) * 128 + 1 * k.val = k.val; rw [e2]; omega

theorem iblk3_apply (c : Dev nD) (t : Fin cfg0.N) (k : Fin 256) (d : Fin 128) :
    iblk m c 3 t (ix2 k d) = stacked (m ((c : Thread nD τ).loc main_arg4)) (m ((c : Thread nD τ).loc main_arg5)) k d := by
  obtain ⟨-, -, -, -, -, -, -, -, e0, e1, -⟩ := idx_facts t
  unfold iblk
  rw [View.read_apply]
  refine Eq.trans (congrArg (V m c main_v4) (?_ : _ = ix2 k d)) (V_v4_apply m c k d)
  funext a; apply Fin.ext
  match a with
  | ⟨0, _⟩ => show win0_3.index t (0 : Fin 2) * 256 + 1 * k.val = k.val; rw [e0]; omega
  | ⟨1, _⟩ => show win0_3.index t (1 : Fin 2) * 128 + 1 * d.val = d.val; rw [e1]; omega

theorem iblk4_eq (c : Dev nD) (t : Fin cfg0.N) : (iblk m c 4 t : S128x128.Idx → EReal) = (m ((c : Thread nD τ).loc main_arg3)) := by
  obtain ⟨-, -, -, -, -, -, -, -, -, -, e0, e1, -⟩ := idx_facts t
  funext j
  unfold iblk
  rw [View.read_apply]
  refine Eq.trans (congrArg (V m c main_arg3) (?_ : _ = j)) (congrFun (V_main_arg3 m c) j)
  funext a; apply Fin.ext
  match a with
  | ⟨0, _⟩ => show win0_4.index t (0 : Fin 2) * 128 + 1 * (j 0).val = (j 0).val; rw [e0]; omega
  | ⟨1, _⟩ => show win0_4.index t (1 : Fin 2) * 128 + 1 * (j 1).val = (j 1).val; rw [e1]; omega

theorem iblk5_apply (c : Dev nD) (t : Fin cfg0.N) (d : Fin 256) :
    iblk m c 5 t (ix2 0 d) = (m ((c : Thread nD τ).loc main_arg6)) (ix1 d) := by
  obtain ⟨-, -, -, -, -, -, -, -, -, -, -, -, e0, e1, -⟩ := idx_facts t
  unfold iblk
  rw [View.read_apply]
  refine Eq.trans (congrArg (V m c main_v3) (?_ : _ = ix2 0 d)) (V_v3_apply m c d)
  funext a; apply Fin.ext
  match a with
  | ⟨0, _⟩ => show win0_5.index t (0 : Fin 2) * 1 + 1 * 0 = 0; rw [e0]
  | ⟨1, _⟩ => show win0_5.index t (1 : Fin 2) * 256 + 1 * d.val = d.val; rw [e1]; omega

/-! ## What a point writes back, and the array after the run -/

/-- The flattened output as a function of the argument arrays as launched. -/
abbrev written (c : Dev nD) : S10240x256.Idx → EReal := flatLayer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- WHAT POINT t WRITES BACK is block t of `written`. -/
theorem flushed_eq (c : Dev nD) (t : Fin cfg0.N) :
    (dats m 0 c).flushed 6 t = ((cfg0.win 6).blk t).view.read (Elt Ideal) (written m c) := by
  show (cfg0.win 6).cut (grid0.coords t) ((dats m 0 c).after 6 t) = _
  rw [after0_6]
  unfold outsAt0
  refine Eq.trans (congrArg ((cfg0.win 6).cut (grid0.coords t)) (out_eq_blockOut (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t))) ?_
  obtain ⟨-, -, -, -, -, -, -, -, -, -, -, -, -, -, e0, e1⟩ := idx_facts t
  refine funext fun (y : S512x256.Idx) => ?_
  obtain ⟨p, d, rfl⟩ : ∃ (p : Fin 512) (d : Fin 256), y = ix2 p d := ⟨y 0, y 1, eq_ix2 y⟩
  rw [View.read_apply]
  have hemb : ((cfg0.win 6).blk t).view.emb (ix2 p d) = ix2 (rowOf t p) d := by
    funext a; apply Fin.ext
    match a with
    | ⟨0, _⟩ => show win0_6.index t (0 : Fin 2) * 512 + 1 * p.val = 512 * t.val + p.val; rw [e0]; omega
    | ⟨1, _⟩ => show win0_6.index t (1 : Fin 2) * 256 + 1 * d.val = d.val; rw [e1]; omega
  rw [hemb]
  show blockOut (F := Ideal) (iblk m c 0 t) (iblk m c 1 t) (iblk m c 2 t) (iblk m c 3 t) (iblk m c 4 t) (iblk m c 5 t) (ix2 p d)
    = flatEntry (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (rowOf t p) d
  unfold flatEntry
  exact entry_of_blocks (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (iblk m c 0 t) (iblk m c 1 t) (iblk m c 2 t) (iblk m c 3 t) (iblk m c 4 t) (iblk m c 5 t) p d
    ⟨(rowOf t p).val / 10, by have := (rowOf t p).isLt; omega⟩ ⟨(rowOf t p).val % 10, by omega⟩
    (fun k => iblk0_apply m c t p k) (fun n k => iblk1_apply m c t p n k) (fun n k => iblk2_apply m c t p n k)
    (fun k d' => iblk3_apply m c t k d') (iblk4_eq m c t) (iblk5_apply m c t d)

/-- An index of the output is in point t's block iff each coordinate is in the block's range. -/
theorem mem_blk (t : Fin cfg0.N) (i : S10240x256.Idx) :
    i ∈ ((cfg0.win 6).blk t).view.set ↔ ∀ a : Fin 2, win0_6.index t a * S512x256.size a ≤ (i a).val ∧ (i a).val < win0_6.index t a * S512x256.size a + S512x256.size a := by
  show i ∈ ((View.whole main_v5).slice (win0_6.rect t)).set ↔ _
  rw [View.set_slice_whole, Rect.mem_set_unit]
  exact Iff.rfl

/-- Row r of the output lies in the block of point r / 512. -/
theorem cover (i : S10240x256.Idx) : ∃ t : Fin cfg0.N, (cfg0.win 6).flush t = true ∧ i ∈ ((cfg0.win 6).blk t).view.set := by
  have hi0 : (i 0).val < 10240 := (i 0).isLt
  have hi1 : (i 1).val < 256 := (i 1).isLt
  let t : Fin cfg0.N := ⟨(i 0).val / 512, by rw [show cfg0.N = 20 from N_0]; omega⟩
  obtain ⟨-, -, -, -, -, -, -, -, -, -, -, -, -, -, e0, e1⟩ := idx_facts t
  refine ⟨t, flush0_6 t, ?_⟩
  rw [mem_blk]
  intro a
  have ht : t.val = (i 0).val / 512 := rfl
  match a with
  | ⟨0, _⟩ => show win0_6.index t (0 : Fin 2) * 512 ≤ (i 0).val ∧ (i 0).val < win0_6.index t (0 : Fin 2) * 512 + 512; rw [e0, ht]; omega
  | ⟨1, _⟩ => show win0_6.index t (1 : Fin 2) * 256 ≤ (i 1).val ∧ (i 1).val < win0_6.index t (1 : Fin 2) * 256 + 256; rw [e1]; omega

/-- THE OUTPUT ARRAY after the run. -/
theorem final (c : Dev nD) : (dats m 0 c).arrAt 6 cfg0.N = written m c :=
  (dats m 0 c).arrAt_eq_of_cover 6 (written m c) (fun t _ => flushed_eq m c t) cover

end Cert.KernelIdeal.Tiled

end
-- ==== Proof.KernelRun.lean ====
/-
  The tiled program's run, read: its result [1024, 10, 256] is the flattened output regrouped, so entry (b, h, d)
  is row 10·b + h of the flattened output at column d — node (b, h)'s tiled row at d, bias added, clipped at
  zero — and the seven argument arrays end as they were launched.
-/
import proofs.«165272_j50294067036664_2_alg».proof.Proof.OutArray

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tiled

open Cert.KernelIdeal Cert.KernelIdeal.Gen Cert.NeighMean

/-- The layer in its tiled form, as one function of the argument arrays. -/
def tiledLayer (a0 : SelfArr) (a1 a2 : NeighArr) (a3 a4 a5 : WArr) (a6 : BiasArr) : OutArr :=
  fun i => max (fusedPreact a0 a1 a2 a3 a4 a5 (i 0) (i 1) (i 2) + a6 (ix1 (i 2))) zeroLit

variable (m : (ℓ : Loc nD τ sig) → Buf (Elt Ideal) ℓ) (ρ : Dev nD → PrngReg)

/-- Row 10·b + h of the flattened output is node (b, h). -/
theorem flatEntry_node (a0 : SelfArr) (a1 a2 : NeighArr) (a3 a4 a5 : WArr) (a6 : BiasArr) (b : Fin 1024) (h : Fin 10) (d : Fin 256)
    (hr : 10 * b.val + h.val < 10240) :
    flatEntry a0 a1 a2 a3 a4 a5 a6 ⟨10 * b.val + h.val, hr⟩ d = max (fusedPreact a0 a1 a2 a3 a4 a5 b h d + a6 (ix1 d)) zeroLit := by
  unfold flatEntry
  have hb : ∀ pf, (⟨(10 * b.val + h.val) / 10, pf⟩ : Fin 1024) = b := fun pf => Fin.ext (by show (10 * b.val + h.val) / 10 = b.val; have := h.isLt; omega)
  have hh : ∀ pf, (⟨(10 * b.val + h.val) % 10, pf⟩ : Fin 10) = h := fun pf => Fin.ext (by show (10 * b.val + h.val) % 10 = h.val; have := h.isLt; omega)
  show max (fusedPreact a0 a1 a2 a3 a4 a5 ⟨(10 * b.val + h.val) / 10, _⟩ ⟨(10 * b.val + h.val) % 10, _⟩ d + a6 (ix1 d)) zeroLit = _
  rw [hb, hh]

/-- The result array after the run. -/
theorem result_eq (c : Dev nD) :
    (Pipeline.afterTail₀ cfgs (dats m) 0 (V0 m) [hostOps1] c main_v6 : S1024x10x256.Idx → EReal)
      = tiledLayer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨b, h, d, rfl⟩ : ∃ (b : Fin 1024) (h : Fin 10) (d : Fin 256), i = ix3 b h d := ⟨i 0, i 1, i 2, eq_ix3 i⟩
  rw [tail_apply, final]
  exact flatEntry_node _ _ _ _ _ _ _ b h d _

/-- THE RUN: the result at the tiled layer of the launched arguments, the arguments unchanged. -/
theorem run : θ_run defs (onTc (τ := τ) (main (F := Ideal))) ⟨m, fun _ => 0, ρ⟩ fun r => ∀ c : Dev nD,
      r.2.mem ((c.tc : Thread nD τ).loc main_v6) = tiledLayer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨((h c).2 main_v6 (Pipeline.mem_restRefs_of main_v6 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).1 4).trans (((dats m 0 c).arrAt_in 4 rfl _).trans ((A_eq m c 4).trans (V_main_arg3 m c))),
       ((h c).2 main_arg4 (Pipeline.mem_restRefs_of main_arg4 (by decide) (by decide))).trans (W_main_arg4 m (dats m) c),
       ((h c).2 main_arg5 (Pipeline.mem_restRefs_of main_arg5 (by decide) (by decide))).trans (W_main_arg5 m (dats m) c),
       ((h c).2 main_arg6 (Pipeline.mem_restRefs_of main_arg6 (by decide) (by decide))).trans (W_main_arg6 m (dats m) c)⟩)
    (run_main m ρ)

end Cert.KernelIdeal.Tiled

end
-- ==== Proof.lean ====
/-
  A graph layer with mean aggregation over two relations, computed two ways, and the proof that the two
  results are equal as extended reals wherever every input entry is finite.

  For a node (b, h) the layer's 256 output columns are: columns 0–127, the node's own 128 features projected
  by w_self; columns 128–255, the mean over both relations and all 32 neighbours of the neighbours' features,
  projected by that relation's weights; then the bias is added and the result is clipped below at zero.

  The plain array program sums each relation's neighbours first, projects, divides by 32, adds the two
  relations and halves.  The tiled program works on 20 blocks of 512 flattened rows: it sums the neighbours in
  four runs of eight, scales each relation's sum by 1/64, lays the two scaled sums side by side (256 columns)
  and contracts once against the two weight matrices stacked on top of each other.  Over the reals
      Σ_k (S₀[k]/64)·w₀[k,d] + Σ_k (S₁[k]/64)·w₁[k,d]  =  ( (Σ_k S₀[k]·w₀[k,d])/32 + (Σ_k S₁[k]·w₁[k,d])/32 ) / 2 ,
  by distributivity; on the extended reals distributivity needs every entry real, which is what the
  precondition gives.  The own half, the bias and the clipping are literally the same on both sides.

  Modules: Spec (the layer, in both arrangements), Algebra (the identity above), Finite (finite inputs are
  real), Tile / BlockValue / TileValue (what one grid point writes, entry by entry), HostSide (the regrouping of
  rows around the launch), OutArray (the twenty blocks tile the output), KernelRun (the tiled program's run),
  RefValue (the plain program's result is the layer).
-/
import proofs.«165272_j50294067036664_2_alg».proof.Defs
import proofs.«165272_j50294067036664_2_alg».proof.Proof.Gen.Kernel
import proofs.«165272_j50294067036664_2_alg».proof.Proof.Gen.Kernel.Skeleton
import proofs.«165272_j50294067036664_2_alg».proof.Proof.Gen.Kernel.Launch
import proofs.«165272_j50294067036664_2_alg».proof.Proof.Gen.Kernel.Points
import proofs.«165272_j50294067036664_2_alg».proof.Proof.Gen.Kernel.Frame
import proofs.«165272_j50294067036664_2_alg».proof.Proof.Gen.KernelIdeal
import proofs.«165272_j50294067036664_2_alg».proof.Proof.Gen.KernelIdeal.Skeleton
import proofs.«165272_j50294067036664_2_alg».proof.Proof.Gen.KernelIdeal.Launch
import proofs.«165272_j50294067036664_2_alg».proof.Proof.Gen.KernelIdeal.Points
import proofs.«165272_j50294067036664_2_alg».proof.Proof.Gen.KernelIdeal.Frame
import proofs.«165272_j50294067036664_2_alg».proof.Proof.Gen.ReferenceIdeal
import proofs.«165272_j50294067036664_2_alg».proof.Proof.Gen.Pre_finite_inputs
import proofs.«165272_j50294067036664_2_alg».proof.Proof.Gen.ReferenceIdeal.Run
import proofs.«165272_j50294067036664_2_alg».proof.Proof.Gen.ReferenceIdeal.Read
import proofs.«165272_j50294067036664_2_alg».proof.Proof.Algebra
import proofs.«165272_j50294067036664_2_alg».proof.Proof.Finite
import proofs.«165272_j50294067036664_2_alg».proof.Proof.RefValue
import proofs.«165272_j50294067036664_2_alg».proof.Proof.KernelRun
import Idealize.ShloMosaic.Adequacy
import Idealize.ShloMosaic.Init

noncomputable section

namespace Cert.Proof

open Idealize.ShloMosaic Idealize.ShloMosaic.TcCoe Idealize.SL.Sem Cert.NeighMean

/-- The word-level tiled program runs, faults nowhere and leaves its arguments as launched. -/
theorem frame_tiled : Cert.frame_Kernel := fun m ρ _ => Cert.Kernel.Gen.frame m ρ

/-- So does its reading over the extended reals. -/
theorem frame_tiled_ideal : Cert.frame_KernelIdeal := fun m ρ _ => Cert.KernelIdeal.Gen.frame m ρ

/-- The plain array program has no launch: its frame is its run with the result dropped. -/
theorem frame_plain : Cert.frame_ReferenceIdeal := fun m ρ _ =>
  (θ_run Cert.ReferenceIdeal.defs _ _).mono (fun _ h c => (h c).2) (Cert.ReferenceIdeal.Value.run (F := Ideal) m ρ)

/-- Nothing of the tiled program was rewritten to read it over the extended reals. -/
theorem preserves : Cert.preserves_Kernel_KernelIdeal := trivial

/-- From memories agreeing on the seven arguments, all finite, both programs end with the layer of those arguments:
    the tiled one with the layer in its tiled arrangement, equal to the plain arrangement because every entry is
    real; the plain one with the layer as written. -/
theorem algebraic : Cert.algebraic_KernelIdeal_ReferenceIdeal := by
  intro m ρ m' ρ' hpre hagree
  refine ⟨fun c => layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun _ h c => ⟨(h c).1.trans ?_, (h c).2⟩) (Cert.KernelIdeal.Tiled.run m ρ)
    obtain ⟨-, f1, f2, -, f4, f5, -⟩ := allReal_of_finite_inputs _ _ _ _ _ _ _ (hpre c)
    funext i
    obtain ⟨b, h, d, rfl⟩ : ∃ (b : Fin 1024) (h : Fin 10) (d : Fin 256), i = ValueIdx.ix3 b h d := ⟨i 0, i 1, i 2, ValueIdx.eq_ix3 i⟩
    show max (fusedPreact _ _ _ _ _ _ b h d + _) zeroLit = max (preact _ _ _ _ _ _ b h d + _) zeroLit
    rw [fusedPreact_eq_preact _ _ _ _ _ _ f1 f2 f4 f5]
  · refine (θ_run Cert.ReferenceIdeal.defs _ _).mono (fun _ h c => ⟨?_, (h c).2⟩) (Cert.ReferenceIdeal.Value.run (F := Ideal) m' ρ')
    rw [(h c).1, Cert.ReferenceIdeal.Read.val_main_v16_eq, Cert.ReferenceIdeal.RefValue.val_eq_layer,
      (hagree c).1, (hagree c).2.1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_tiled, frame_tiled_ideal, frame_plain, preserves, algebraic⟩

end Cert.Proof

end
